-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x512 : Shape := ⟨3, ![32, 4096, 512]⟩
abbrev S512x512 : Shape := ⟨2, ![512, 512]⟩
abbrev S512 : Shape := ⟨1, ![512]⟩
abbrev S512x1 : Shape := ⟨2, ![512, 1]⟩
abbrev S_ : Shape := ⟨0, ![]⟩

class Facts : Prop where
  bcast_S_S32x4096x512 : S_.BroadcastsInDim S32x4096x512 (![] : Fin 0 → Fin S32x4096x512.rank)
  reducesTo_S32x4096x512_S_d0_1_2 : S32x4096x512.ReducesTo [0, 1, 2] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x1 : S_.BroadcastsInDim S512x1 (![] : Fin 0 → Fin S512x1.rank)
  reducesTo_S512x1_S_d0_1 : S512x1.ReducesTo [0, 1] S_

variable [Facts]

def fn_part1 {F : FTy → Type} [FloatOps F] (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  main_v18

def fn {F : FTy → Type} [FloatOps F] (main_arg0 : FVec F S32x4096x512 .f32) (main_arg1 : FVec F S512x512 .f32) (main_arg2 : FVec F S512 .f32) (main_arg3 : FVec F S512x1 .f32) : IVec S_ 1 :=
  let main_v0 : FVec F S32x4096x512 .f32 := Host.absf main_arg0
  let main_cst : FVec F S_ .f32 := constant S_ .f32 0x7F800000#32
  let main_v1 : FVec F S32x4096x512 .f32 := broadcastInDim S32x4096x512 ![] bcast_S_S32x4096x512 main_cst
  let main_v2 : IVec S32x4096x512 1 := cmpf .olt main_v0 main_v1
  let main_c : IVec S_ 1 := constantI S_ 1 1#1
  let main_v3 : IVec S_ 1 := (fun x v => Host.reduce IntOp.andi x v reducesTo_S32x4096x512_S_d0_1_2 h_S_) main_v2 main_c
  let main_v4 : FVec F S512x512 .f32 := Host.absf main_arg1
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1 .f32 := Host.absf main_arg3
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_v13 main_v16
-- ==== Kernel.lean ====
abbrev S32x4096x512 : Shape := ⟨3, ![32, 4096, 512]⟩
abbrev S512x512 : Shape := ⟨2, ![512, 512]⟩
abbrev S512 : Shape := ⟨1, ![512]⟩
abbrev S512x1 : Shape := ⟨2, ![512, 1]⟩
abbrev S32x512 : Shape := ⟨2, ![32, 512]⟩
abbrev S8x256x512 : Shape := ⟨3, ![8, 256, 512]⟩
abbrev S8x512 : Shape := ⟨2, ![8, 512]⟩
abbrev S8x1x1 : Shape := ⟨3, ![8, 1, 1]⟩
abbrev S8x1x512 : Shape := ⟨3, ![8, 1, 512]⟩
abbrev S2048x512 : Shape := ⟨2, ![2048, 512]⟩
abbrev S1x512 : Shape := ⟨2, ![1, 512]⟩
abbrev S2048 : Shape := ⟨1, ![2048]⟩
abbrev S2048x1 : Shape := ⟨2, ![2048, 1]⟩
abbrev S8x256x1 : Shape := ⟨3, ![8, 256, 1]⟩
abbrev S8x1 : Shape := ⟨2, ![8, 1]⟩

abbrev nBuf : Space → Nat
  | .hbm => 5
  | .vmem => 10
  | .smem => 0
  | _ => 0

abbrev bufTy : (tb : Table) → Fin (tcTables nBuf tb) → BufTy
  | .hbm, ⟨0, _⟩ => ⟨S32x4096x512, .f32⟩
  | .hbm, ⟨1, _⟩ => ⟨S512x512, .f32⟩
  | .hbm, ⟨2, _⟩ => ⟨S512, .f32⟩
  | .hbm, ⟨3, _⟩ => ⟨S512x1, .f32⟩
  | .hbm, ⟨4, _⟩ => ⟨S32x512, .f32⟩
  | .local _ .vmem, ⟨0, _⟩ => ⟨S8x256x512, .f32⟩
  | .local _ .vmem, ⟨1, _⟩ => ⟨S8x256x512, .f32⟩
  | .local _ .vmem, ⟨2, _⟩ => ⟨S512x512, .f32⟩
  | .local _ .vmem, ⟨3, _⟩ => ⟨S512, .f32⟩
  | .local _ .vmem, ⟨4, _⟩ => ⟨S512x1, .f32⟩
  | .local _ .vmem, ⟨5, _⟩ => ⟨S8x512, .f32⟩
  | .local _ .vmem, ⟨6, _⟩ => ⟨S8x512, .f32⟩
  | .local _ .vmem, ⟨7, _⟩ => ⟨S8x1x1, .f32⟩
  | .local _ .vmem, ⟨8, _⟩ => ⟨S8x1x1, .f32⟩
  | .local _ .vmem, ⟨9, _⟩ => ⟨S8x1x512, .f32⟩
  | _, _ => ⟨S32x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v53 : BitVec 1 := Scalar.cmpi .eq arg1 c15_i32
  let v54 : BitVec 32 := Scalar.extui v53
  let c0_i32_30 : BitVec 32 := 0#32
  let v55 : BitVec 1 := Scalar.cmpi .ne v54 c0_i32_30
  v55

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S8x1x1_S8x1x1_0_0_0 : ∀ a, (![0, 0, 0] : Fin 3 → Nat) a + S8x1x1.size a ≤ S8x1x1.size a
  h_S8x1x1 : 0 < S8x1x1.numel
  shapeCasts_S8x1x1_S8x1x1 : S8x1x1.ShapeCasts S8x1x1
  inb_S8x1x512_S8x1x512_0_0_0 : ∀ a, (![0, 0, 0] : Fin 3 → Nat) a + S8x1x512.size a ≤ S8x1x512.size a
  h_S8x1x512 : 0 < S8x1x512.numel
  shapeCasts_S8x1x512_S8x1x512 : S8x1x512.ShapeCasts S8x1x512
  inb_S8x256x512_S8x256x512_0_0_0 : ∀ a, (![0, 0, 0] : Fin 3 → Nat) a + S8x256x512.size a ≤ S8x256x512.size a
  h_S8x256x512 : 0 < S8x256x512.numel
  inb_S512x512_S512x512_0_0 : ∀ a, (![0, 0] : Fin 2 → Nat) a + S512x512.size a ≤ S512x512.size a
  h_S512x512 : 0 < S512x512.numel
  inb_S512_S512_0 : ∀ a, (![0] : Fin 1 → Nat) a + S512.size a ≤ S512.size a
  h_S512 : 0 < S512.numel
  inb_S512x1_S512x1_0_0 : ∀ a, (![0, 0] : Fin 2 → Nat) a + S512x1.size a ≤ S512x1.size a
  h_S512x1 : 0 < S512x1.numel
  shapeCasts_S8x256x512_S2048x512 : S8x256x512.ShapeCasts S2048x512
  bitsLt_bf16_f32 : FTy.bits .bf16 < FTy.bits .f32
  shapeCasts_S512_S1x512 : S512.ShapeCasts S1x512
  broadcasts_S1x512_S2048x512 : S1x512.Broadcasts S2048x512
  shapeCasts_S512x1_S512 : S512x1.ShapeCasts S512
  reduces_S2048x512_S2048 : S2048x512.Reduces [1] S2048
  shapeCasts_S2048_S2048x1 : S2048.ShapeCasts S2048x1
  shapeCasts_S2048x1_S8x256x1 : S2048x1.ShapeCasts S8x256x1
  reduces_S8x256x1_S8x1 : S8x256x1.Reduces [1] S8x1
  shapeCasts_S8x1_S8x1x1 : S8x1.ShapeCasts S8x1x1
  broadcasts_S8x1x1_S8x256x1 : S8x1x1.Broadcasts S8x256x1
  broadcasts_S8x256x1_S8x256x512 : S8x256x1.Broadcasts S8x256x512
  reduces_S8x256x512_S8x512 : S8x256x512.Reduces [1] S8x512
  shapeCasts_S8x512_S8x1x512 : S8x512.ShapeCasts S8x1x512
  broadcasts_S8x1x1_S8x1x512 : S8x1x1.Broadcasts S8x1x512
  shapeCasts_S8x1x512_S8x512 : S8x1x512.ShapeCasts S8x512
  shapeCasts_S8x1x1_S8x1 : S8x1x1.ShapeCasts S8x1
  broadcasts_S8x1_S8x512 : S8x1.Broadcasts S8x512
  inb_S8x512_S8x512_0_0 : ∀ a, (![0, 0] : Fin 2 → Nat) a + S8x512.size a ≤ S8x512.size a
  h_S8x512 : 0 < S8x512.numel
  dot_S2048x512_S512x512_S2048x512_1_0_0_1_n_n_wf : DotDims.WF S2048x512 S512x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x256x512.size a ≤ S32x4096x512.size a
  hwx0_0 : ∀ i : grid0.Coords, EltTy.bits .f32 = 32 ∨ (Rect.block (s := S32x4096x512) S8x256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S512x1.size a
  hwx0_3 : ∀ i : grid0.Coords, EltTy.bits .f32 = 32 ∨ (Rect.block (s := S512x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x512.size a ≤ S32x512.size a
  hwx0_4 : ∀ i : grid0.Coords, EltTy.bits .f32 = 32 ∨ (Rect.block (s := S32x512) S8x512.size (cc0_transform_4 i) (hinb0_4 i)).WholeWords (EltTy.packing .f32)

variable [Facts₀]

def dot_S2048x512_S512x512_S2048x512_1_0_0_1_n_n : DotDims S2048x512 S512x512 S2048x512 where
  lhsContracting := [1]
  rhsContracting := [0]
  lhsNonContracting := [0]
  rhsNonContracting := [1]
  lhsBatch := []
  rhsBatch := []
  wf := dot_S2048x512_S512x512_S2048x512_1_0_0_1_n_n_wf

abbrev win0_0 : Pipeline.Window sig grid0 :=
  Pipeline.Window.ofSpec (Memref.whole main_arg0) S8x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S8x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x4096x512 : Shape := ⟨3, ![32, 4096, 512]⟩
abbrev S512x512 : Shape := ⟨2, ![512, 512]⟩
abbrev S512 : Shape := ⟨1, ![512]⟩
abbrev S512x1 : Shape := ⟨2, ![512, 1]⟩
abbrev S1x1x512 : Shape := ⟨3, ![1, 1, 512]⟩
abbrev S32x4096x1 : Shape := ⟨3, ![32, 4096, 1]⟩
abbrev S_ : Shape := ⟨0, ![]⟩
abbrev S32x1 : Shape := ⟨2, ![32, 1]⟩
abbrev S32x1x1 : Shape := ⟨3, ![32, 1, 1]⟩
abbrev S32x512 : Shape := ⟨2, ![32, 512]⟩

abbrev nBuf : Space → Nat
  | .hbm => 28
  | .vmem => 0
  | .smem => 0
  | _ => 0

abbrev bufTy : (tb : Table) → Fin (tcTables nBuf tb) → BufTy
  | .hbm, ⟨0, _⟩ => ⟨S32x4096x512, .f32⟩
  | .hbm, ⟨1, _⟩ => ⟨S512x512, .f32⟩
  | .hbm, ⟨2, _⟩ => ⟨S512, .f32⟩
  | .hbm, ⟨3, _⟩ => ⟨S512x1, .f32⟩
  | .hbm, ⟨4, _⟩ => ⟨S32x4096x512, .f32⟩
  | .hbm, ⟨5, _⟩ => ⟨S1x1x512, .f32⟩
  | .hbm, ⟨6, _⟩ => ⟨S32x4096x512, .f32⟩
  | .hbm, ⟨7, _⟩ => ⟨S32x4096x512, .f32⟩
  | .hbm, ⟨8, _⟩ => ⟨S32x4096x512, .f32⟩
  | .hbm, ⟨9, _⟩ => ⟨S32x4096x1, .f32⟩
  | .hbm, ⟨10, _⟩ => ⟨S_, .f32⟩
  | .hbm, ⟨11, _⟩ => ⟨S32x1, .f32⟩
  | .hbm, ⟨12, _⟩ => ⟨S_, .f32⟩
  | .hbm, ⟨13, _⟩ => ⟨S32x1, .f32⟩
  | .hbm, ⟨14, _⟩ => ⟨S32x1, .f32⟩
  | .hbm, ⟨15, _⟩ => ⟨S32x1x1, .f32⟩
  | .hbm, ⟨16, _⟩ => ⟨S32x4096x1, .f32⟩
  | .hbm, ⟨17, _⟩ => ⟨S32x4096x1, .f32⟩
  | .hbm, ⟨18, _⟩ => ⟨S32x4096x1, .f32⟩
  | .hbm, ⟨19, _⟩ => ⟨S_, .f32⟩
  | .hbm, ⟨20, _⟩ => ⟨S32x1, .f32⟩
  | .hbm, ⟨21, _⟩ => ⟨S32x1x1, .f32⟩
  | .hbm, ⟨22, _⟩ => ⟨S32x4096x1, .f32⟩
  | .hbm, ⟨23, _⟩ => ⟨S32x4096x1, .f32⟩
  | .hbm, ⟨24, _⟩ => ⟨S32x4096x512, .f32⟩
  | .hbm, ⟨25, _⟩ => ⟨S32x4096x512, .f32⟩
  | .hbm, ⟨26, _⟩ => ⟨S_, .f32⟩
  | .hbm, ⟨27, _⟩ => ⟨S32x512, .f32⟩
  | _, _ => ⟨S32x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S512_S1x1x512_2 : S512.BroadcastsInDim S1x1x512 (![2] : Fin 1 → Fin S1x1x512.rank)
  bcast_S1x1x512_S32x4096x512_0_1_2 : S1x1x512.BroadcastsInDim S32x4096x512 (![0, 1, 2] : Fin 3 → Fin S32x4096x512.rank)
  reducesTo_S32x4096x1_S32x1_d1 : S32x4096x1.ReducesTo [1] S32x1
  h_S_ : 0 < S_.numel
  bcast_S_S32x1 : S_.BroadcastsInDim S32x1 (![] : Fin 0 → Fin S32x1.rank)
  bcast_S32x1_S32x1x1_0_2 : S32x1.BroadcastsInDim S32x1x1 (![0, 2] : Fin 2 → Fin S32x1x1.rank)
  bcast_S32x1x1_S32x4096x1_0_1_2 : S32x1x1.BroadcastsInDim S32x4096x1 (![0, 1, 2] : Fin 3 → Fin S32x4096x1.rank)
  bcast_S32x4096x1_S32x4096x512_0_1_2 : S32x4096x1.BroadcastsInDim S32x4096x512 (![0, 1, 2] : Fin 3 → Fin S32x4096x512.rank)
  reducesTo_S32x4096x512_S32x512_d1 : S32x4096x512.ReducesTo [1] S32x512
  dot_S32x4096x512_S512x512_S32x4096x512_2_0_01_1_n_n_wf : DotDims.WF S32x4096x512 S512x512 S32x4096x512 [2] [0] [0, 1] [1] [] []
  dot_S32x4096x512_S512x1_S32x4096x1_2_0_01_1_n_n_wf : DotDims.WF S32x4096x512 S512x1 S32x4096x1 [2] [0] [0, 1] [1] [] []

variable [Facts₀]

def dot_S32x4096x512_S512x512_S32x4096x512_2_0_01_1_n_n : DotDims S32x4096x512 S512x512 S32x4096x512 where
  lhsContracting := [2]
  rhsContracting := [0]
  lhsNonContracting := [0, 1]
  rhsNonContracting := [1]
  lhsBatch := []
  rhsBatch := []
  wf := dot_S32x4096x512_S512x512_S32x4096x512_2_0_01_1_n_n_wf
def dot_S32x4096x512_S512x1_S32x4096x1_2_0_01_1_n_n : DotDims S32x4096x512 S512x1 S32x4096x1 where
  lhsContracting := [2]
  rhsContracting := [0]
  lhsNonContracting := [0, 1]
  rhsNonContracting := [1]
  lhsBatch := []
  rhsBatch := []
  wf := dot_S32x4096x512_S512x1_S32x4096x1_2_0_01_1_n_n_wf

class Facts : Prop extends Facts₀ where

variable [Facts]
-- ==== Proof.Pieces.lean ====
/-
  What one run of the body leaves in the three carried buffers and in the output block, as terms over the body's
  stored values: the level buffer ends at the new level, the denominator buffer at the new denominator, the
  numerator buffer at the new numerator — over the buffers' previous contents (a middle or last tile) or over the
  initial values the first tile stores (−∞, 0, 0) —, and at the last tile the output block is the quotient of the
  new numerator by the new denominator. Every load of the body reads a whole buffer and every store overwrites one,
  so each buffer's contents after the body is the last value stored into it.
-/
import proofs.«170809_j48842368090703_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.SL.Sem
open Idealize.ShloMosaic.Tactic

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a; rfl

/-! ## A middle tile -/

theorem mid_level (c : Dev nD) (i : grid0.Coords) (arg2 : Memref sig .tc .vmem S8x256x512 .f32) (harg2 : arg2.IsWhole) (arg3 : Memref sig .tc .vmem S512x512 .f32) (harg3 : arg3.IsWhole) (arg4 : Memref sig .tc .vmem S512 .f32) (harg4 : arg4.IsWhole) (arg5 : Memref sig .tc .vmem S512x1 .f32) (harg5 : arg5.IsWhole) (arg6 : Memref sig .tc .vmem S8x512 .f32) (harg6 : arg6.IsWhole) (arg7 : Memref sig .tc .vmem S8x1x1 .f32) (harg7 : arg7.IsWhole) (arg8 : Memref sig .tc .vmem S8x1x1 .f32) (harg8 : arg8.IsWhole) (arg9 : Memref sig .tc .vmem S8x1x512 .f32) (harg9 : arg9.IsWhole) (hc0 : ¬cond0_0 i) (hc1 : ¬cond0_1 i)
    (x0 : Vec F S8x256x512 .f32) (x1 : Vec F S512x512 .f32) (x2 : Vec F S512 .f32) (x3 : Vec F S512x1 .f32) (xs0 : Vec F S8x1x1 .f32) (xs1 : Vec F S8x1x1 .f32) (xs2 : Vec F S8x1x512 .f32) :
    sout0_B_0 c i arg2 harg2 arg3 harg3 arg4 harg4 arg5 harg5 arg6 harg6 arg7 harg7 arg8 harg8 arg9 harg9 hc0 hc1 x0 x1 x2 x3 xs0 xs1 xs2 = k0_pay3 (k0_pay9 x0 x1 x2 x3 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  simp only [View.canon_unit_zero (S := S8x1x1) hz3, View.canon_unit_zero (S := S8x1x512) hz3, View.canon_unit_zero (S := S8x512) hz2, View.canon_cons_unit_zero (S := S8x1x1) hz3, View.canon_cons_unit_zero (S := S8x1x512) hz3, View.readCov_unit_zero (S := S8x1x1) _ hz3, View.readCov_unit_zero (S := S8x1x512) _ hz3, View.readAt_eq_ld, harg2.read_unread, harg3.read_unread, harg4.read_unread, harg5.read_unread, harg7.read_unread, harg8.read_unread, harg9.read_unread, View.ld_unit_zero (S := S8x256x512) hz3, View.ld_unit_zero (S := S512x512) hz2, View.ld_unit_zero (S := S512) hz1, View.ld_unit_zero (S := S512x1) hz2, View.ld_unit_zero (S := S8x1x1) hz3, View.ld_unit_zero (S := S8x1x512) hz3]

theorem mid_den (c : Dev nD) (i : grid0.Coords) (arg2 : Memref sig .tc .vmem S8x256x512 .f32) (harg2 : arg2.IsWhole) (arg3 : Memref sig .tc .vmem S512x512 .f32) (harg3 : arg3.IsWhole) (arg4 : Memref sig .tc .vmem S512 .f32) (harg4 : arg4.IsWhole) (arg5 : Memref sig .tc .vmem S512x1 .f32) (harg5 : arg5.IsWhole) (arg6 : Memref sig .tc .vmem S8x512 .f32) (harg6 : arg6.IsWhole) (arg7 : Memref sig .tc .vmem S8x1x1 .f32) (harg7 : arg7.IsWhole) (arg8 : Memref sig .tc .vmem S8x1x1 .f32) (harg8 : arg8.IsWhole) (arg9 : Memref sig .tc .vmem S8x1x512 .f32) (harg9 : arg9.IsWhole) (hc0 : ¬cond0_0 i) (hc1 : ¬cond0_1 i)
    (x0 : Vec F S8x256x512 .f32) (x1 : Vec F S512x512 .f32) (x2 : Vec F S512 .f32) (x3 : Vec F S512x1 .f32) (xs0 : Vec F S8x1x1 .f32) (xs1 : Vec F S8x1x1 .f32) (xs2 : Vec F S8x1x512 .f32) :
    sout0_B_1 c i arg2 harg2 arg3 harg3 arg4 harg4 arg5 harg5 arg6 harg6 arg7 harg7 arg8 harg8 arg9 harg9 hc0 hc1 x0 x1 x2 x3 xs0 xs1 xs2 = k0_pay1 (k0_pay12 x0 x1 x2 x3 xs0 xs1) := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  simp only [View.canon_unit_zero (S := S8x1x1) hz3, View.canon_unit_zero (S := S8x1x512) hz3, View.canon_unit_zero (S := S8x512) hz2, View.canon_cons_unit_zero (S := S8x1x1) hz3, View.canon_cons_unit_zero (S := S8x1x512) hz3, View.readCov_unit_zero (S := S8x1x1) _ hz3, View.readCov_unit_zero (S := S8x1x512) _ hz3, View.readAt_eq_ld, harg2.read_unread, harg3.read_unread, harg4.read_unread, harg5.read_unread, harg7.read_unread, harg8.read_unread, harg9.read_unread, View.ld_unit_zero (S := S8x256x512) hz3, View.ld_unit_zero (S := S512x512) hz2, View.ld_unit_zero (S := S512) hz1, View.ld_unit_zero (S := S512x1) hz2, View.ld_unit_zero (S := S8x1x1) hz3, View.ld_unit_zero (S := S8x1x512) hz3]

theorem mid_num (c : Dev nD) (i : grid0.Coords) (arg2 : Memref sig .tc .vmem S8x256x512 .f32) (harg2 : arg2.IsWhole) (arg3 : Memref sig .tc .vmem S512x512 .f32) (harg3 : arg3.IsWhole) (arg4 : Memref sig .tc .vmem S512 .f32) (harg4 : arg4.IsWhole) (arg5 : Memref sig .tc .vmem S512x1 .f32) (harg5 : arg5.IsWhole) (arg6 : Memref sig .tc .vmem S8x512 .f32) (harg6 : arg6.IsWhole) (arg7 : Memref sig .tc .vmem S8x1x1 .f32) (harg7 : arg7.IsWhole) (arg8 : Memref sig .tc .vmem S8x1x1 .f32) (harg8 : arg8.IsWhole) (arg9 : Memref sig .tc .vmem S8x1x512 .f32) (harg9 : arg9.IsWhole) (hc0 : ¬cond0_0 i) (hc1 : ¬cond0_1 i)
    (x0 : Vec F S8x256x512 .f32) (x1 : Vec F S512x512 .f32) (x2 : Vec F S512 .f32) (x3 : Vec F S512x1 .f32) (xs0 : Vec F S8x1x1 .f32) (xs1 : Vec F S8x1x1 .f32) (xs2 : Vec F S8x1x512 .f32) :
    sout0_B_2 c i arg2 harg2 arg3 harg3 arg4 harg4 arg5 harg5 arg6 harg6 arg7 harg7 arg8 harg8 arg9 harg9 hc0 hc1 x0 x1 x2 x3 xs0 xs1 xs2 = k0_pay2 x0 (k0_pay10 x0 x1 x2 x3 xs0) (k0_pay11 x0 x1 x2 x3 xs0) xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  simp only [View.canon_unit_zero (S := S8x1x1) hz3, View.canon_unit_zero (S := S8x1x512) hz3, View.canon_unit_zero (S := S8x512) hz2, View.canon_cons_unit_zero (S := S8x1x1) hz3, View.canon_cons_unit_zero (S := S8x1x512) hz3, View.readCov_unit_zero (S := S8x1x1) _ hz3, View.readCov_unit_zero (S := S8x1x512) _ hz3, View.readAt_eq_ld, harg2.read_unread, harg3.read_unread, harg4.read_unread, harg5.read_unread, harg7.read_unread, harg8.read_unread, harg9.read_unread, View.ld_unit_zero (S := S8x256x512) hz3, View.ld_unit_zero (S := S512x512) hz2, View.ld_unit_zero (S := S512) hz1, View.ld_unit_zero (S := S512x1) hz2, View.ld_unit_zero (S := S8x1x1) hz3, View.ld_unit_zero (S := S8x1x512) hz3]

/-! ## The last tile -/

theorem last_level (c : Dev nD) (i : grid0.Coords) (arg2 : Memref sig .tc .vmem S8x256x512 .f32) (harg2 : arg2.IsWhole) (arg3 : Memref sig .tc .vmem S512x512 .f32) (harg3 : arg3.IsWhole) (arg4 : Memref sig .tc .vmem S512 .f32) (harg4 : arg4.IsWhole) (arg5 : Memref sig .tc .vmem S512x1 .f32) (harg5 : arg5.IsWhole) (arg6 : Memref sig .tc .vmem S8x512 .f32) (harg6 : arg6.IsWhole) (arg7 : Memref sig .tc .vmem S8x1x1 .f32) (harg7 : arg7.IsWhole) (arg8 : Memref sig .tc .vmem S8x1x1 .f32) (harg8 : arg8.IsWhole) (arg9 : Memref sig .tc .vmem S8x1x512 .f32) (harg9 : arg9.IsWhole) (hc0 : ¬cond0_0 i) (hc1 : cond0_1 i)
    (x0 : Vec F S8x256x512 .f32) (x1 : Vec F S512x512 .f32) (x2 : Vec F S512 .f32) (x3 : Vec F S512x1 .f32) (xs0 : Vec F S8x1x1 .f32) (xs1 : Vec F S8x1x1 .f32) (xs2 : Vec F S8x1x512 .f32) :
    sout0_C_0 c i arg2 harg2 arg3 harg3 arg4 harg4 arg5 harg5 arg6 harg6 arg7 harg7 arg8 harg8 arg9 harg9 hc0 hc1 x0 x1 x2 x3 xs0 xs1 xs2 = k0_pay3 (k0_pay9 x0 x1 x2 x3 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  simp only [View.canon_unit_zero (S := S8x1x1) hz3, View.canon_unit_zero (S := S8x1x512) hz3, View.canon_unit_zero (S := S8x512) hz2, View.canon_cons_unit_zero (S := S8x1x1) hz3, View.canon_cons_unit_zero (S := S8x1x512) hz3, View.readCov_unit_zero (S := S8x1x1) _ hz3, View.readCov_unit_zero (S := S8x1x512) _ hz3, View.readAt_eq_ld, harg2.read_unread, harg3.read_unread, harg4.read_unread, harg5.read_unread, harg7.read_unread, harg8.read_unread, harg9.read_unread, View.ld_unit_zero (S := S8x256x512) hz3, View.ld_unit_zero (S := S512x512) hz2, View.ld_unit_zero (S := S512) hz1, View.ld_unit_zero (S := S512x1) hz2, View.ld_unit_zero (S := S8x1x1) hz3, View.ld_unit_zero (S := S8x1x512) hz3]

theorem last_den (c : Dev nD) (i : grid0.Coords) (arg2 : Memref sig .tc .vmem S8x256x512 .f32) (harg2 : arg2.IsWhole) (arg3 : Memref sig .tc .vmem S512x512 .f32) (harg3 : arg3.IsWhole) (arg4 : Memref sig .tc .vmem S512 .f32) (harg4 : arg4.IsWhole) (arg5 : Memref sig .tc .vmem S512x1 .f32) (harg5 : arg5.IsWhole) (arg6 : Memref sig .tc .vmem S8x512 .f32) (harg6 : arg6.IsWhole) (arg7 : Memref sig .tc .vmem S8x1x1 .f32) (harg7 : arg7.IsWhole) (arg8 : Memref sig .tc .vmem S8x1x1 .f32) (harg8 : arg8.IsWhole) (arg9 : Memref sig .tc .vmem S8x1x512 .f32) (harg9 : arg9.IsWhole) (hc0 : ¬cond0_0 i) (hc1 : cond0_1 i)
    (x0 : Vec F S8x256x512 .f32) (x1 : Vec F S512x512 .f32) (x2 : Vec F S512 .f32) (x3 : Vec F S512x1 .f32) (xs0 : Vec F S8x1x1 .f32) (xs1 : Vec F S8x1x1 .f32) (xs2 : Vec F S8x1x512 .f32) :
    sout0_C_1 c i arg2 harg2 arg3 harg3 arg4 harg4 arg5 harg5 arg6 harg6 arg7 harg7 arg8 harg8 arg9 harg9 hc0 hc1 x0 x1 x2 x3 xs0 xs1 xs2 = k0_pay1 (k0_pay12 x0 x1 x2 x3 xs0 xs1) := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  simp only [View.canon_unit_zero (S := S8x1x1) hz3, View.canon_unit_zero (S := S8x1x512) hz3, View.canon_unit_zero (S := S8x512) hz2, View.canon_cons_unit_zero (S := S8x1x1) hz3, View.canon_cons_unit_zero (S := S8x1x512) hz3, View.readCov_unit_zero (S := S8x1x1) _ hz3, View.readCov_unit_zero (S := S8x1x512) _ hz3, View.readAt_eq_ld, harg2.read_unread, harg3.read_unread, harg4.read_unread, harg5.read_unread, harg7.read_unread, harg8.read_unread, harg9.read_unread, View.ld_unit_zero (S := S8x256x512) hz3, View.ld_unit_zero (S := S512x512) hz2, View.ld_unit_zero (S := S512) hz1, View.ld_unit_zero (S := S512x1) hz2, View.ld_unit_zero (S := S8x1x1) hz3, View.ld_unit_zero (S := S8x1x512) hz3]

theorem last_num (c : Dev nD) (i : grid0.Coords) (arg2 : Memref sig .tc .vmem S8x256x512 .f32) (harg2 : arg2.IsWhole) (arg3 : Memref sig .tc .vmem S512x512 .f32) (harg3 : arg3.IsWhole) (arg4 : Memref sig .tc .vmem S512 .f32) (harg4 : arg4.IsWhole) (arg5 : Memref sig .tc .vmem S512x1 .f32) (harg5 : arg5.IsWhole) (arg6 : Memref sig .tc .vmem S8x512 .f32) (harg6 : arg6.IsWhole) (arg7 : Memref sig .tc .vmem S8x1x1 .f32) (harg7 : arg7.IsWhole) (arg8 : Memref sig .tc .vmem S8x1x1 .f32) (harg8 : arg8.IsWhole) (arg9 : Memref sig .tc .vmem S8x1x512 .f32) (harg9 : arg9.IsWhole) (hc0 : ¬cond0_0 i) (hc1 : cond0_1 i)
    (x0 : Vec F S8x256x512 .f32) (x1 : Vec F S512x512 .f32) (x2 : Vec F S512 .f32) (x3 : Vec F S512x1 .f32) (xs0 : Vec F S8x1x1 .f32) (xs1 : Vec F S8x1x1 .f32) (xs2 : Vec F S8x1x512 .f32) :
    sout0_C_2 c i arg2 harg2 arg3 harg3 arg4 harg4 arg5 harg5 arg6 harg6 arg7 harg7 arg8 harg8 arg9 harg9 hc0 hc1 x0 x1 x2 x3 xs0 xs1 xs2 = k0_pay2 x0 (k0_pay10 x0 x1 x2 x3 xs0) (k0_pay11 x0 x1 x2 x3 xs0) xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  simp only [View.canon_unit_zero (S := S8x1x1) hz3, View.canon_unit_zero (S := S8x1x512) hz3, View.canon_unit_zero (S := S8x512) hz2, View.canon_cons_unit_zero (S := S8x1x1) hz3, View.canon_cons_unit_zero (S := S8x1x512) hz3, View.readCov_unit_zero (S := S8x1x1) _ hz3, View.readCov_unit_zero (S := S8x1x512) _ hz3, View.readAt_eq_ld, harg2.read_unread, harg3.read_unread, harg4.read_unread, harg5.read_unread, harg7.read_unread, harg8.read_unread, harg9.read_unread, View.ld_unit_zero (S := S8x256x512) hz3, View.ld_unit_zero (S := S512x512) hz2, View.ld_unit_zero (S := S512) hz1, View.ld_unit_zero (S := S512x1) hz2, View.ld_unit_zero (S := S8x1x1) hz3, View.ld_unit_zero (S := S8x1x512) hz3]

theorem last_out (c : Dev nD) (i : grid0.Coords) (arg2 : Memref sig .tc .vmem S8x256x512 .f32) (harg2 : arg2.IsWhole) (arg3 : Memref sig .tc .vmem S512x512 .f32) (harg3 : arg3.IsWhole) (arg4 : Memref sig .tc .vmem S512 .f32) (harg4 : arg4.IsWhole) (arg5 : Memref sig .tc .vmem S512x1 .f32) (harg5 : arg5.IsWhole) (arg6 : Memref sig .tc .vmem S8x512 .f32) (harg6 : arg6.IsWhole) (arg7 : Memref sig .tc .vmem S8x1x1 .f32) (harg7 : arg7.IsWhole) (arg8 : Memref sig .tc .vmem S8x1x1 .f32) (harg8 : arg8.IsWhole) (arg9 : Memref sig .tc .vmem S8x1x512 .f32) (harg9 : arg9.IsWhole) (hc0 : ¬cond0_0 i) (hc1 : cond0_1 i)
    (x0 : Vec F S8x256x512 .f32) (x1 : Vec F S512x512 .f32) (x2 : Vec F S512 .f32) (x3 : Vec F S512x1 .f32) (xs0 : Vec F S8x1x1 .f32) (xs1 : Vec F S8x1x1 .f32) (xs2 : Vec F S8x1x512 .f32) :
    out0_C_4 c i arg2 harg2 arg3 harg3 arg4 harg4 arg5 harg5 arg6 harg6 arg7 harg7 arg8 harg8 arg9 harg9 hc0 hc1 x0 x1 x2 x3 xs0 xs1 xs2 = k0_pay4 (k0_pay2 x0 (k0_pay10 x0 x1 x2 x3 xs0) (k0_pay11 x0 x1 x2 x3 xs0) xs2) (k0_pay1 (k0_pay12 x0 x1 x2 x3 xs0 xs1)) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  simp only [View.canon_unit_zero (S := S8x1x1) hz3, View.canon_unit_zero (S := S8x1x512) hz3, View.canon_unit_zero (S := S8x512) hz2, View.canon_cons_unit_zero (S := S8x1x1) hz3, View.canon_cons_unit_zero (S := S8x1x512) hz3, View.readCov_unit_zero (S := S8x1x1) _ hz3, View.readCov_unit_zero (S := S8x1x512) _ hz3, View.readAt_eq_ld, harg2.read_unread, harg3.read_unread, harg4.read_unread, harg5.read_unread, harg7.read_unread, harg8.read_unread, harg9.read_unread, View.ld_unit_zero (S := S8x256x512) hz3, View.ld_unit_zero (S := S512x512) hz2, View.ld_unit_zero (S := S512) hz1, View.ld_unit_zero (S := S512x1) hz2, View.ld_unit_zero (S := S8x1x1) hz3, View.ld_unit_zero (S := S8x1x512) hz3]

/-! ## The first tile -/

theorem first_level (c : Dev nD) (i : grid0.Coords) (arg2 : Memref sig .tc .vmem S8x256x512 .f32) (harg2 : arg2.IsWhole) (arg3 : Memref sig .tc .vmem S512x512 .f32) (harg3 : arg3.IsWhole) (arg4 : Memref sig .tc .vmem S512 .f32) (harg4 : arg4.IsWhole) (arg5 : Memref sig .tc .vmem S512x1 .f32) (harg5 : arg5.IsWhole) (arg6 : Memref sig .tc .vmem S8x512 .f32) (harg6 : arg6.IsWhole) (arg7 : Memref sig .tc .vmem S8x1x1 .f32) (harg7 : arg7.IsWhole) (arg8 : Memref sig .tc .vmem S8x1x1 .f32) (harg8 : arg8.IsWhole) (arg9 : Memref sig .tc .vmem S8x1x512 .f32) (harg9 : arg9.IsWhole) (hc0 : cond0_0 i) (hc1 : ¬cond0_1 i)
    (x0 : Vec F S8x256x512 .f32) (x1 : Vec F S512x512 .f32) (x2 : Vec F S512 .f32) (x3 : Vec F S512x1 .f32) :
    sout0_A_0 c i arg2 harg2 arg3 harg3 arg4 harg4 arg5 harg5 arg6 harg6 arg7 harg7 arg8 harg8 arg9 harg9 hc0 hc1 x0 x1 x2 x3 = k0_pay3 (k0_pay9 x0 x1 x2 x3 k0_pay5) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  simp only [View.canon_unit_zero (S := S8x1x1) hz3, View.canon_unit_zero (S := S8x1x512) hz3, View.canon_unit_zero (S := S8x512) hz2, View.canon_cons_unit_zero (S := S8x1x1) hz3, View.canon_cons_unit_zero (S := S8x1x512) hz3, View.readCov_unit_zero (S := S8x1x1) _ hz3, View.readCov_unit_zero (S := S8x1x512) _ hz3, View.readAt_eq_ld, harg2.read_unread, harg3.read_unread, harg4.read_unread, harg5.read_unread, harg7.read_unread, harg8.read_unread, harg9.read_unread, View.ld_unit_zero (S := S8x256x512) hz3, View.ld_unit_zero (S := S512x512) hz2, View.ld_unit_zero (S := S512) hz1, View.ld_unit_zero (S := S512x1) hz2, View.ld_unit_zero (S := S8x1x1) hz3, View.ld_unit_zero (S := S8x1x512) hz3]

theorem first_den (c : Dev nD) (i : grid0.Coords) (arg2 : Memref sig .tc .vmem S8x256x512 .f32) (harg2 : arg2.IsWhole) (arg3 : Memref sig .tc .vmem S512x512 .f32) (harg3 : arg3.IsWhole) (arg4 : Memref sig .tc .vmem S512 .f32) (harg4 : arg4.IsWhole) (arg5 : Memref sig .tc .vmem S512x1 .f32) (harg5 : arg5.IsWhole) (arg6 : Memref sig .tc .vmem S8x512 .f32) (harg6 : arg6.IsWhole) (arg7 : Memref sig .tc .vmem S8x1x1 .f32) (harg7 : arg7.IsWhole) (arg8 : Memref sig .tc .vmem S8x1x1 .f32) (harg8 : arg8.IsWhole) (arg9 : Memref sig .tc .vmem S8x1x512 .f32) (harg9 : arg9.IsWhole) (hc0 : cond0_0 i) (hc1 : ¬cond0_1 i)
    (x0 : Vec F S8x256x512 .f32) (x1 : Vec F S512x512 .f32) (x2 : Vec F S512 .f32) (x3 : Vec F S512x1 .f32) :
    sout0_A_1 c i arg2 harg2 arg3 harg3 arg4 harg4 arg5 harg5 arg6 harg6 arg7 harg7 arg8 harg8 arg9 harg9 hc0 hc1 x0 x1 x2 x3 = k0_pay1 (k0_pay12 x0 x1 x2 x3 k0_pay5 k0_pay6) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  simp only [View.canon_unit_zero (S := S8x1x1) hz3, View.canon_unit_zero (S := S8x1x512) hz3, View.canon_unit_zero (S := S8x512) hz2, View.canon_cons_unit_zero (S := S8x1x1) hz3, View.canon_cons_unit_zero (S := S8x1x512) hz3, View.readCov_unit_zero (S := S8x1x1) _ hz3, View.readCov_unit_zero (S := S8x1x512) _ hz3, View.readAt_eq_ld, harg2.read_unread, harg3.read_unread, harg4.read_unread, harg5.read_unread, harg7.read_unread, harg8.read_unread, harg9.read_unread, View.ld_unit_zero (S := S8x256x512) hz3, View.ld_unit_zero (S := S512x512) hz2, View.ld_unit_zero (S := S512) hz1, View.ld_unit_zero (S := S512x1) hz2, View.ld_unit_zero (S := S8x1x1) hz3, View.ld_unit_zero (S := S8x1x512) hz3]

theorem first_num (c : Dev nD) (i : grid0.Coords) (arg2 : Memref sig .tc .vmem S8x256x512 .f32) (harg2 : arg2.IsWhole) (arg3 : Memref sig .tc .vmem S512x512 .f32) (harg3 : arg3.IsWhole) (arg4 : Memref sig .tc .vmem S512 .f32) (harg4 : arg4.IsWhole) (arg5 : Memref sig .tc .vmem S512x1 .f32) (harg5 : arg5.IsWhole) (arg6 : Memref sig .tc .vmem S8x512 .f32) (harg6 : arg6.IsWhole) (arg7 : Memref sig .tc .vmem S8x1x1 .f32) (harg7 : arg7.IsWhole) (arg8 : Memref sig .tc .vmem S8x1x1 .f32) (harg8 : arg8.IsWhole) (arg9 : Memref sig .tc .vmem S8x1x512 .f32) (harg9 : arg9.IsWhole) (hc0 : cond0_0 i) (hc1 : ¬cond0_1 i)
    (x0 : Vec F S8x256x512 .f32) (x1 : Vec F S512x512 .f32) (x2 : Vec F S512 .f32) (x3 : Vec F S512x1 .f32) :
    sout0_A_2 c i arg2 harg2 arg3 harg3 arg4 harg4 arg5 harg5 arg6 harg6 arg7 harg7 arg8 harg8 arg9 harg9 hc0 hc1 x0 x1 x2 x3 = k0_pay2 x0 (k0_pay10 x0 x1 x2 x3 k0_pay5) (k0_pay11 x0 x1 x2 x3 k0_pay5) k0_pay7 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  simp only [View.canon_unit_zero (S := S8x1x1) hz3, View.canon_unit_zero (S := S8x1x512) hz3, View.canon_unit_zero (S := S8x512) hz2, View.canon_cons_unit_zero (S := S8x1x1) hz3, View.canon_cons_unit_zero (S := S8x1x512) hz3, View.readCov_unit_zero (S := S8x1x1) _ hz3, View.readCov_unit_zero (S := S8x1x512) _ hz3, View.readAt_eq_ld, harg2.read_unread, harg3.read_unread, harg4.read_unread, harg5.read_unread, harg7.read_unread, harg8.read_unread, harg9.read_unread, View.ld_unit_zero (S := S8x256x512) hz3, View.ld_unit_zero (S := S512x512) hz2, View.ld_unit_zero (S := S512) hz1, View.ld_unit_zero (S := S512x1) hz2, View.ld_unit_zero (S := S8x1x1) hz3, View.ld_unit_zero (S := S8x1x512) hz3]

end Cert.KernelIdeal.Pieces

end
-- ==== Proof.State.lean ====
/-
  The three carried buffers after each grid point, as one update applied to what the point before left.

  A grid point is the pair (batch block, tile); the points run tile by tile within a batch block, sixteen tiles
  to a block. At the first tile of a block the buffers are first set to (−∞, 0, 0) and then updated; at every other
  tile they are updated from what the tile before left; at the last tile the output block is the quotient of the
  updated numerator by the updated denominator.
-/
import proofs.«170809_j48842368090703_2_alg».proof.Proof.Gen.KernelIdeal.Value
import proofs.«170809_j48842368090703_2_alg».proof.Proof.Pieces

set_option maxRecDepth 16384

noncomputable section

namespace Cert.KernelIdeal.State

open Cert.KernelIdeal Cert.KernelIdeal.Gen Cert.KernelIdeal.Pieces Idealize.ShloMosaic Idealize.ShloMosaic.TcCoe Idealize.SL.Sem

variable {F : FTy → Type} [FloatOps F]
variable (m : (ℓ : Loc nD τ sig) → Buf (Elt F) ℓ)

/-- The carried state: level, denominator, numerator rows. -/
abbrev Carried (F : FTy → Type) [FloatOps F] : Type := Vec F S8x1x1 .f32 × Vec F S8x1x1 .f32 × Vec F S8x1x512 .f32

/-- One tile's update of the carried state. -/
def upd (x0 : Vec F S8x256x512 .f32) (w : Vec F S512x512 .f32) (bv : Vec F S512 .f32) (vv : Vec F S512x1 .f32)
    (s : Carried F) : Carried F :=
  (k0_pay3 (k0_pay9 x0 w bv vv s.1), k0_pay1 (k0_pay12 x0 w bv vv s.1 s.2.1),
    k0_pay2 x0 (k0_pay10 x0 w bv vv s.1) (k0_pay11 x0 w bv vv s.1) s.2.2)

/-- What the first tile of a batch block stores before its update: level −∞, denominator 0, numerator 0. -/
def start : Carried F := (k0_pay5, k0_pay6, k0_pay7)

/-- After the first tile of a batch block. -/
theorem carried_first (c : Dev nD) (t : Fin cfg0.N) (h0 : t.val % 16 = 0) :
    (outsAt0 m c t.val t.isLt).2 = upd (iblk m c 0 t) (iblk m c 1 t) (iblk m c 2 t) (iblk m c 3 t) start := by
  have hN : t.val < 64 := lt_of_lt_of_eq t.isLt (show cfg0.N = 64 from N_0)
  have h1 : ¬t.val % 16 = 15 := by omega
  rw [outsAt0_A m c t h0 h1]
  dsimp only
  rw [first_level c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    first_den c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t),
    first_num c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)]
  rfl

/-- After any other tile. -/
theorem carried_next (c : Dev nD) (t : Fin cfg0.N) (h0 : ¬t.val % 16 = 0) :
    (outsAt0 m c t.val t.isLt).2
      = upd (iblk m c 0 t) (iblk m c 1 t) (iblk m c 2 t) (iblk m c 3 t) (outsAt0 m c (t.val - 1) (Nat.lt_of_le_of_lt (Nat.sub_le _ _) t.isLt)).2 := by
  by_cases h1 : t.val % 16 = 15
  · rw [outsAt0_C m c t h0 h1]
    dsimp only
    rw [last_level c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      last_den c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      last_num c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    rfl
  · rw [outsAt0_B m c t h0 h1]
    dsimp only
    rw [mid_level c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      mid_den c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
      mid_num c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]
    rfl

/-- At the last tile of a batch block the output block is the quotient of what the tile leaves in the numerator
    and denominator buffers. -/
theorem out_last (c : Dev nD) (t : Fin cfg0.N) (h1 : t.val % 16 = 15) :
    (outsAt0 m c t.val t.isLt).1
      = k0_pay4 (outsAt0 m c t.val t.isLt).2.2.2 (outsAt0 m c t.val t.isLt).2.2.1 := by
  have h0 : ¬t.val % 16 = 0 := by omega
  rw [outsAt0_C m c t h0 h1]
  dsimp only
  rw [last_out c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    last_den c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
    last_num c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2]

end Cert.KernelIdeal.State

end
-- ==== Proof.Blocks.lean ====
/-
  The blocks the body sees at a grid point, read off the argument arrays.

  Grid point number `t` is batch block `t / 16`, tile `t % 16`. The block of `x` there is rows `8 (t / 16) + r`,
  tokens `256 (t % 16) + k`, all 512 features; `W`, `b` and `V` are staged whole at every point; the output block is
  rows `8 (t / 16) + r`, all 512 features.
-/
import proofs.«170809_j48842368090703_2_alg».proof.Proof.Gen.KernelIdeal.Value
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx

variable {F : FTy → Type} [FloatOps F]
variable (m : (ℓ : Loc nD τ sig) → Buf (Elt F) ℓ)

/-- The block indices of the five windows at every grid point. -/
theorem idx0 : ∀ t : Fin cfg0.N, win0_0.index t 0 = t.val / 16 ∧ win0_0.index t 1 = t.val % 16 ∧ win0_0.index t 2 = 0 :=
  (by decide +kernel : ∀ t : Fin grid0.N, win0_0.index t 0 = t.val / 16 ∧ win0_0.index t 1 = t.val % 16 ∧ win0_0.index t 2 = 0)

theorem idx1 : ∀ t : Fin cfg0.N, win0_1.index t 0 = 0 ∧ win0_1.index t 1 = 0 :=
  (by decide +kernel : ∀ t : Fin grid0.N, win0_1.index t 0 = 0 ∧ win0_1.index t 1 = 0)

theorem idx2 : ∀ t : Fin cfg0.N, win0_2.index t 0 = 0 :=
  (by decide +kernel : ∀ t : Fin grid0.N, win0_2.index t 0 = 0)

theorem idx3 : ∀ t : Fin cfg0.N, win0_3.index t 0 = 0 ∧ win0_3.index t 1 = 0 :=
  (by decide +kernel : ∀ t : Fin grid0.N, win0_3.index t 0 = 0 ∧ win0_3.index t 1 = 0)

theorem idx4 : ∀ t : Fin cfg0.N, win0_4.index t 0 = t.val / 16 ∧ win0_4.index t 1 = 0 :=
  (by decide +kernel : ∀ t : Fin grid0.N, win0_4.index t 0 = t.val / 16 ∧ win0_4.index t 1 = 0)

/-- The block of `x` at point `t`, entry (r, k, f), is `x` at row `8 (t / 16) + r`, token `256 (t % 16) + k`. -/
theorem blk0_at (c : Dev nD) (t : Fin cfg0.N) (r : Fin 8) (k : Fin 256) (f : Fin 512)
    (p : Fin 32) (q : Fin 4096) (hp : p.val = 8 * (t.val / 16) + r.val) (hq : q.val = 256 * (t.val % 16) + k.val) :
    (iblk m c 0 t : Vec F S8x256x512 .f32) (ix3 r k f) = V m c main_arg0 (ix3 p q f) := by
  unfold iblk
  rw [View.read_apply]
  show V m c main_arg0 _ = V m c main_arg0 _
  congr 1
  funext a
  apply Fin.ext
  have hi := idx0 t
  match a with
  | ⟨0, _⟩ => show win0_0.index t 0 * 8 + 1 * r.val = p.val; rw [hi.1]; omega
  | ⟨1, _⟩ => show win0_0.index t 1 * 256 + 1 * k.val = q.val; rw [hi.2.1]; omega
  | ⟨2, _⟩ => show win0_0.index t 2 * 512 + 1 * f.val = f.val; rw [hi.2.2]; omega

/-- `W` is staged whole. -/
theorem blk1_eq (c : Dev nD) (t : Fin cfg0.N) : (iblk m c 1 t : Vec F S512x512 .f32) = V m c main_arg1 := by
  funext y
  unfold iblk
  rw [View.read_apply]
  show V m c main_arg1 _ = V m c main_arg1 _
  congr 1
  funext a
  apply Fin.ext
  have hi := idx1 t
  match a with
  | ⟨0, _⟩ => show win0_1.index t 0 * 512 + 1 * (y 0).val = (y 0).val; rw [hi.1]; omega
  | ⟨1, _⟩ => show win0_1.index t 1 * 512 + 1 * (y 1).val = (y 1).val; rw [hi.2]; omega

/-- `b` is staged whole. -/
theorem blk2_eq (c : Dev nD) (t : Fin cfg0.N) : (iblk m c 2 t : Vec F S512 .f32) = V m c main_arg2 := by
  funext y
  unfold iblk
  rw [View.read_apply]
  show V m c main_arg2 _ = V m c main_arg2 _
  congr 1
  funext a
  apply Fin.ext
  have hi := idx2 t
  match a with
  | ⟨0, _⟩ => show win0_2.index t 0 * 512 + 1 * (y 0).val = (y 0).val; rw [hi]; omega

/-- `V` is staged whole. -/
theorem blk3_eq (c : Dev nD) (t : Fin cfg0.N) : (iblk m c 3 t : Vec F S512x1 .f32) = V m c main_arg3 := by
  funext y
  unfold iblk
  rw [View.read_apply]
  show V m c main_arg3 _ = V m c main_arg3 _
  congr 1
  funext a
  apply Fin.ext
  have hi := idx3 t
  match a with
  | ⟨0, _⟩ => show win0_3.index t 0 * 512 + 1 * (y 0).val = (y 0).val; rw [hi.1]; omega
  | ⟨1, _⟩ => show win0_3.index t 1 * 1 + 1 * (y 1).val = (y 1).val; rw [hi.2]; omega

end Cert.KernelIdeal.Blocks

end
-- ==== Proof.LibOnlineSoftmax.lean ====
/-
  The tiled ("online") softmax-weighted sum over the extended reals.

  A row of scores `s j` (each a real number or `⊥`, never `⊤`) and a row of real values `v j` are visited a
  tile of keys at a time. Between tiles one keeps a level `m` (an upper bound of the scores seen so far, `⊥`
  before the first tile), a denominator `l` and a numerator `acc`; a tile with new level `m'` replaces them by
      l'   = exp (m - m') * l   + ∑ j in tile, exp (s j - m')
      acc' = exp (m - m') * acc + ∑ j in tile, exp (s j - m') * v j .
  The invariant `Inv` says that `l` and `acc` are the sums over the keys seen so far of the weights
  `exp (s j - m)` and of the weights times the values. It holds before the first tile (`Inv.init`), every tile
  preserves it (`Inv.step`: the factor `exp (m - m')` moves every old weight from level `m` to level `m'`,
  because `exp (m - m') * exp (x - m) = exp (x - m')`, also when `m = ⊥` where both sides vanish), and once
  all keys are seen the quotient `acc / l` is the plain softmax-weighted sum `∑ j, (e j / ∑ k, e k) * v j` with
  `e j = exp (s j - M)` for ANY real level `M` (`Inv.result`): the common factor `exp (m - M)` cancels.
  Everything is computed in the reals: the exponential of anything but `⊤` is a real number.
-/
import Idealize.ShloMosaic.PureOps.Ideal
import Mathlib.Data.EReal.Operations
import Mathlib.Analysis.SpecialFunctions.Exp
import Mathlib.Algebra.BigOperators.Field
import Mathlib.Tactic

noncomputable section

namespace OnlineSoftmax

open Idealize.ShloMosaic
open scoped BigOperators

/-- The cast of a finite real sum is the sum of the casts. -/
theorem coe_sum {ι : Type*} (S : Finset ι) (f : ι → ℝ) :
    ((∑ j ∈ S, f j : ℝ) : EReal) = ∑ j ∈ S, (f j : EReal) := by
  classical
  induction S using Finset.induction_on with
  | empty => simp
  | insert a S ha ih => rw [Finset.sum_insert ha, Finset.sum_insert ha, EReal.coe_add, ih]

/-- The exponential of anything but `⊤` is a real number. -/
theorem exp_eq_coe {y : EReal} (hy : y ≠ ⊤) : Ideal.exp y = ((Ideal.exp y).toReal : EReal) := by
  induction y using EReal.rec with
  | bot => simp
  | coe r => simp
  | top => exact absurd rfl hy

/-- That real number is not negative. -/
theorem exp_toReal_nonneg (y : EReal) : 0 ≤ (Ideal.exp y).toReal := by
  induction y using EReal.rec with
  | bot => simp
  | coe r => simp [Real.exp_nonneg]
  | top => simp

/-- Subtracting a real from anything but `⊤` does not give `⊤`. -/
theorem sub_coe_ne_top {x : EReal} (hx : x ≠ ⊤) (r : ℝ) : x - (r : EReal) ≠ ⊤ := by
  induction x using EReal.rec with
  | bot => simp [EReal.bot_sub]
  | coe a => rw [← EReal.coe_sub]; exact EReal.coe_ne_top _
  | top => exact absurd rfl hx

/-- Moving a weight from level `m` to the real level `r'`. -/
theorem rescale {x m : EReal} (r' : ℝ) (hx : x ≠ ⊤) (hxm : x ≤ m) (hm : m ≠ ⊤) :
    (Ideal.exp (m - r')).toReal * (Ideal.exp (x - m)).toReal = (Ideal.exp (x - r')).toReal := by
  induction m using EReal.rec with
  | bot =>
    have hxb : x = ⊥ := le_bot_iff.mp hxm
    subst hxb
    simp [EReal.bot_sub]
  | top => exact absurd rfl hm
  | coe r =>
    induction x using EReal.rec with
    | bot => simp [EReal.bot_sub]
    | top => exact absurd rfl hx
    | coe a =>
      rw [← EReal.coe_sub, ← EReal.coe_sub, ← EReal.coe_sub]
      simp only [Ideal.exp_coe, EReal.toReal_coe]
      rw [← Real.exp_add]
      congr 1
      ring

variable {ι : Type*}

/-- The weight of key `j` against the level `m`, as a real number. -/
def wt (s : ι → EReal) (m : EReal) (j : ι) : ℝ := (Ideal.exp (s j - m)).toReal

theorem wt_nonneg (s : ι → EReal) (m : EReal) (j : ι) : 0 ≤ wt s m j := exp_toReal_nonneg _

/-- Against a real level the weight is the extended-real exponential itself. -/
theorem exp_eq_wt (s : ι → EReal) (hs : ∀ j, s j ≠ ⊤) (r : ℝ) (j : ι) :
    Ideal.exp (s j - (r : EReal)) = ((wt s r j : ℝ) : EReal) :=
  exp_eq_coe (sub_coe_ne_top (hs j) r)

/-- The state between tiles: `m` bounds the scores seen, `l` and `acc` are the sums of the weights and of the
    weights times the values over the keys seen. -/
structure Inv (s : ι → EReal) (v : ι → ℝ) (S : Finset ι) (m l acc : EReal) : Prop where
  bound : ∀ j ∈ S, s j ≤ m
  den : l = ((∑ j ∈ S, wt s m j : ℝ) : EReal)
  num : acc = ((∑ j ∈ S, wt s m j * v j : ℝ) : EReal)

/-- Before the first tile: level `⊥`, both sums empty. -/
theorem Inv.init (s : ι → EReal) (v : ι → ℝ) : Inv s v ∅ ⊥ 0 0 :=
  ⟨fun _ h => absurd h (Finset.notMem_empty _), by simp, by simp⟩

/-- One tile. -/
theorem Inv.step [DecidableEq ι] {s : ι → EReal} {v : ι → ℝ} {S τ : Finset ι} {m l acc : EReal}
    (h : Inv s v S m l acc) (hs : ∀ j, s j ≠ ⊤) (hd : Disjoint S τ) (r' : ℝ)
    (hm : m ≤ (r' : EReal)) (hτ : ∀ j ∈ τ, s j ≤ (r' : EReal)) :
    Inv s v (S ∪ τ) (r' : EReal)
      (Ideal.exp (m - r') * l + ∑ j ∈ τ, Ideal.exp (s j - r'))
      (Ideal.exp (m - r') * acc + ∑ j ∈ τ, Ideal.exp (s j - r') * (v j : EReal)) := by
  have hmt : m ≠ ⊤ := fun e => by rw [e] at hm; exact absurd hm (by simp)
  have ha : Ideal.exp (m - r') = (((Ideal.exp (m - r')).toReal : ℝ) : EReal) := exp_eq_coe (sub_coe_ne_top hmt r')
  have hold : ∀ j ∈ S, (Ideal.exp (m - r')).toReal * wt s m j = wt s r' j := fun j hj =>
    rescale r' (hs j) (h.bound j hj) hmt
  have eτ : ∑ j ∈ τ, Ideal.exp (s j - r') = ((∑ j ∈ τ, wt s r' j : ℝ) : EReal) := by
    rw [coe_sum]; exact Finset.sum_congr rfl (fun j _ => exp_eq_wt s hs r' j)
  have eτv : ∑ j ∈ τ, Ideal.exp (s j - r') * (v j : EReal) = ((∑ j ∈ τ, wt s r' j * v j : ℝ) : EReal) := by
    rw [coe_sum]; exact Finset.sum_congr rfl (fun j _ => by rw [exp_eq_wt s hs r' j, EReal.coe_mul])
  have e1 : (Ideal.exp (m - r')).toReal * ∑ j ∈ S, wt s m j = ∑ j ∈ S, wt s r' j := by
    rw [Finset.mul_sum]; exact Finset.sum_congr rfl hold
  have e2 : (Ideal.exp (m - r')).toReal * ∑ j ∈ S, wt s m j * v j = ∑ j ∈ S, wt s r' j * v j := by
    rw [Finset.mul_sum]; exact Finset.sum_congr rfl (fun j hj => by rw [← mul_assoc, hold j hj])
  refine ⟨fun j hj => ?_, ?_, ?_⟩
  · rcases Finset.mem_union.mp hj with hj | hj
    · exact (h.bound j hj).trans hm
    · exact hτ j hj
  · rw [eτ, h.den, ha, ← EReal.coe_mul, ← EReal.coe_add, e1, Finset.sum_union hd]
  · rw [eτv, h.num, ha, ← EReal.coe_mul, ← EReal.coe_add, e2, Finset.sum_union hd]

/-- A masked key (score `⊥`) has weight zero against every level. -/
theorem wt_bot {s : ι → EReal} {j : ι} (h : s j = ⊥) (m : EReal) : wt s m j = 0 := by
  unfold wt; rw [h, EReal.bot_sub]; simp

/-- A tile all of whose keys are masked may be skipped: the state already accounts for it. (A causal kernel skips
    the key tiles that lie wholly after a query chunk.) -/
theorem Inv.skip [DecidableEq ι] {s : ι → EReal} {v : ι → ℝ} {S τ : Finset ι} {m l acc : EReal}
    (h : Inv s v S m l acc) (hd : Disjoint S τ) (hτ : ∀ j ∈ τ, s j = ⊥) : Inv s v (S ∪ τ) m l acc := by
  refine ⟨fun j hj => ?_, ?_, ?_⟩
  · rcases Finset.mem_union.mp hj with hj | hj
    · exact h.bound j hj
    · rw [hτ j hj]; exact bot_le
  · rw [h.den, Finset.sum_union hd, Finset.sum_eq_zero (s := τ) (fun j hj => wt_bot (hτ j hj) m), add_zero]
  · rw [h.num, Finset.sum_union hd,
      Finset.sum_eq_zero (s := τ) (fun j hj => by rw [wt_bot (hτ j hj) m, zero_mul]), add_zero]

/-- A row maximum taken as a fold of `max` from `⊥` (the way a lane reduction with the neutral accumulator reads
    at the extended reals) is the supremum of the row. -/
theorem fold_max_bot (S : Finset ι) (f : ι → EReal) : S.fold max ⊥ f = S.sup f := by
  classical
  induction S using Finset.induction_on with
  | empty => simp
  | insert a S ha ih => rw [Finset.fold_insert ha, Finset.sup_insert, ih]

/-- The level after a tile is the larger of the old level and the tile's largest score. It is a real number as
    soon as the old level is not `⊥` or some score of the tile is not `⊥` (no score and no level being `⊤`). -/
theorem level_real {s : ι → EReal} (hs : ∀ j, s j ≠ ⊤) {τ : Finset ι} {m : EReal} (hm : m ≠ ⊤)
    (hne : m ≠ ⊥ ∨ ∃ j ∈ τ, s j ≠ ⊥) : ∃ r : ℝ, max m (τ.sup s) = (r : EReal) := by
  have hsup : τ.sup s < ⊤ := (Finset.sup_lt_iff bot_lt_top).mpr (fun j _ => lt_top_iff_ne_top.mpr (hs j))
  have htop : max m (τ.sup s) ≠ ⊤ := (max_lt (lt_top_iff_ne_top.mpr hm) hsup).ne
  have hbot : max m (τ.sup s) ≠ ⊥ := by
    rcases hne with h | ⟨j, hj, h⟩
    · exact ((bot_lt_iff_ne_bot.mpr h).trans_le (le_max_left _ _)).ne'
    · exact ((bot_lt_iff_ne_bot.mpr h).trans_le ((Finset.le_sup hj).trans (le_max_right _ _))).ne'
  exact ⟨_, (EReal.coe_toReal htop hbot).symm⟩

/-- One tile, with the new level taken as the running maximum does: the larger of the old level and the tile's
    largest score. -/
theorem Inv.tile [DecidableEq ι] {s : ι → EReal} {v : ι → ℝ} {S τ : Finset ι} {m l acc : EReal}
    (h : Inv s v S m l acc) (hs : ∀ j, s j ≠ ⊤) (hd : Disjoint S τ) (hm : m ≠ ⊤)
    (hne : m ≠ ⊥ ∨ ∃ j ∈ τ, s j ≠ ⊥) :
    (∃ r : ℝ, max m (τ.sup s) = (r : EReal)) ∧
    Inv s v (S ∪ τ) (max m (τ.sup s))
      (Ideal.exp (m - max m (τ.sup s)) * l + ∑ j ∈ τ, Ideal.exp (s j - max m (τ.sup s)))
      (Ideal.exp (m - max m (τ.sup s)) * acc + ∑ j ∈ τ, Ideal.exp (s j - max m (τ.sup s)) * (v j : EReal)) := by
  obtain ⟨r, hr⟩ := level_real hs hm hne
  refine ⟨⟨r, hr⟩, ?_⟩
  have h1 : m ≤ (r : EReal) := hr ▸ le_max_left _ _
  have h2 : ∀ j ∈ τ, s j ≤ (r : EReal) := fun j hj => hr ▸ (Finset.le_sup hj).trans (le_max_right _ _)
  rw [hr]
  exact h.step hs hd r h1 h2

/-- All keys seen, at a real level, with at least one score that is not `⊥`: the quotient is the plain
    softmax-weighted sum, written at any real level `M`. -/
theorem Inv.result [Fintype ι] {s : ι → EReal} {v : ι → ℝ} {r : ℝ} {l acc : EReal}
    (h : Inv s v Finset.univ (r : EReal) l acc) (hs : ∀ j, s j ≠ ⊤) (hne : ∃ j, s j ≠ ⊥) (M : ℝ) :
    Ideal.div acc l
      = ∑ j, Ideal.div (Ideal.exp (s j - M)) (∑ k, Ideal.exp (s k - M)) * (v j : EReal) := by
  classical
  -- the denominators are positive reals
  have hpos : ∀ (x : ℝ), 0 < ∑ k, wt s x k := fun x => by
    obtain ⟨j, hj⟩ := hne
    refine Finset.sum_pos' (fun k _ => wt_nonneg s x k) ⟨j, Finset.mem_univ j, ?_⟩
    have hjr : ∃ a : ℝ, s j = a := by
      induction hsj : s j using EReal.rec with
      | bot => exact absurd hsj hj
      | coe a => exact ⟨a, rfl⟩
      | top => exact absurd hsj (hs j)
    obtain ⟨a, ha⟩ := hjr
    unfold wt
    rw [ha, ← EReal.coe_sub]
    simp only [Ideal.exp_coe, EReal.toReal_coe]
    exact Real.exp_pos _
  -- every weight at level M is the weight at level r times one common positive factor
  have hc : ∀ j, wt s M j = Real.exp (r - M) * wt s r j := fun j => by
    have := rescale (x := s j) (m := (r : EReal)) M (hs j) (h.bound j (Finset.mem_univ j)) (EReal.coe_ne_top r)
    show (Ideal.exp (s j - (M : EReal))).toReal = Real.exp (r - M) * (Ideal.exp (s j - (r : EReal))).toReal
    rw [← this, ← EReal.coe_sub]
    simp only [Ideal.exp_coe, EReal.toReal_coe]
  have hW : (∑ k, wt s r k) ≠ 0 := (hpos r).ne'
  have hW' : (∑ k, wt s M k) ≠ 0 := (hpos M).ne'
  have hcpos : Real.exp (r - M) ≠ 0 := (Real.exp_pos _).ne'
  have eden : ∑ k, Ideal.exp (s k - M) = ((∑ k, wt s M k : ℝ) : EReal) := by
    rw [coe_sum]; exact Finset.sum_congr rfl (fun k _ => exp_eq_wt s hs M k)
  have eterm : ∀ j, Ideal.div (Ideal.exp (s j - M)) ((∑ k, wt s M k : ℝ) : EReal) * (v j : EReal)
      = ((wt s M j * (1 / ∑ k, wt s M k) * v j : ℝ) : EReal) := fun j => by
    rw [exp_eq_wt s hs M j, Ideal.div_coe hW', ← EReal.coe_mul, ← EReal.coe_mul]
  have hsum : (∑ k, wt s M k) = Real.exp (r - M) * ∑ k, wt s r k := by
    rw [Finset.mul_sum]; exact Finset.sum_congr rfl (fun k _ => hc k)
  rw [h.num, h.den, Ideal.div_coe hW, ← EReal.coe_mul, eden, Finset.sum_congr rfl (fun j _ => eterm j), ← coe_sum]
  congr 1
  rw [hsum, Finset.sum_mul]
  refine Finset.sum_congr rfl (fun j _ => ?_)
  rw [hc j]
  field_simp

end OnlineSoftmax

end
-- ==== Proof.PayAt.lean ====
/-
  The body's arithmetic, one stored value at a time, read at an index over the extended reals.

  At one grid point the body sees a tile `x0` of 8 batch rows by 256 tokens by 512 features, the whole `w`, `bv`,
  `vv`, and per batch row the running level `m0`, denominator `l0` and numerator row `a0`. Its stored values are:
  the tile's scores (`tscore`), the new level (the larger of the old level and the tile's largest score), the two
  rescaling exponentials, the new denominator and numerator, and at the last tile the quotient.
-/
import proofs.«170809_j48842368090703_2_alg».proof.Proof.Gen.KernelIdeal.Skeleton
import proofs.«170809_j48842368090703_2_alg».proof.Proof.LibOnlineSoftmax
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.PayAt

open Cert.KernelIdeal Cert.KernelIdeal.Gen Idealize.ShloMosaic Idealize.ShloMosaic.ValueIdx

variable (x0 : Vec Ideal S8x256x512 .f32) (w : Vec Ideal S512x512 .f32) (bv : Vec Ideal S512 .f32)
  (vv : Vec Ideal S512x1 .f32) (m0 l0 : Vec Ideal S8x1x1 .f32) (a0 : Vec Ideal S8x1x512 .f32)

/-- The score of token `k` of row `r` of the tile. -/
def tscore (r : Fin 8) (k : Fin 256) : EReal :=
  ∑ u : Fin 512, Ideal.tanh ((∑ f : Fin 512, x0 (ix3 r k f) * w (ix2 f u)) + bv (ix1 u)) * vv (ix2 u (0 : Fin 1))

/-- The level after the tile: the larger of the old level and the tile's largest score. -/
def newLevel (r : Fin 8) : EReal :=
  max (m0 (ix3 r (0 : Fin 1) (0 : Fin 1))) (Finset.univ.sup (tscore x0 w bv vv r))

/-- The word `0xFF800000` denotes `⊥`. -/
theorem ofBits_neg_inf : Ideal.ofBits .f32 0xFF800000#32 = ⊥ := by simp [Ideal.ofBits, Ideal.ieee]

section Layout8
variable {α : Type}

/-- Row `256 * r + k` of the tile flattened to 2048 rows. -/
def row (r : Fin 8) (k : Fin 256) : Fin 2048 := ⟨256 * r.val + k.val, by omega⟩

/-- The tile `[8,256,512]` flattened to `[2048,512]` reads `(r, k, f)` at `(256 r + k, f)`. -/
theorem cast_8x256x512_2048x512 (x : S8x256x512.Idx → α) (h : S8x256x512.ShapeCasts S2048x512) (r : Fin 8) (k : Fin 256)
    (f : Fin 512) : shapeCast S2048x512 x h (ix2 (row r k) f) = x (ix3 r k f) :=
  shapeCast_apply x h _ _ (by
    rw [Shape.rowMajor_val_three, Shape.rowMajor_val_two]
    show (r.val * 256 + k.val) * 512 + f.val = (256 * r.val + k.val) * 512 + f.val
    omega)

/-- A `[2048,1]` column viewed `[8,256,1]` reads `(256 r + k, 0)` at `(r, k, u)`. -/
theorem cast_2048x1_8x256x1 (x : S2048x1.Idx → α) (h : S2048x1.ShapeCasts S8x256x1) (r : Fin 8) (k : Fin 256) (u : Fin 1) :
    shapeCast S8x256x1 x h (ix3 r k u) = x (ix2 (row r k) (0 : Fin 1)) :=
  shapeCast_apply x h _ _ (by
    have := u.isLt
    rw [Shape.rowMajor_val_three, Shape.rowMajor_val_two]
    show (256 * r.val + k.val) * 1 + 0 = (r.val * 256 + k.val) * 1 + u.val
    omega)

/-- A `[2048]` vector viewed as a column `[2048,1]` reads `q` at `(q, u)`. -/
theorem cast_2048_2048x1 (x : S2048.Idx → α) (h : S2048.ShapeCasts S2048x1) (q : Fin 2048) (u : Fin 1) :
    shapeCast S2048x1 x h (ix2 q u) = x (ix1 q) :=
  shapeCast_apply x h _ _ (by
    have := u.isLt
    rw [Shape.rowMajor_val_two, Shape.rowMajor_val_one]
    show q.val = q.val * 1 + u.val
    omega)

/-- A `[512,1]` column viewed as a vector `[512]` reads `(u, 0)` at `u`. -/
theorem cast_512x1_512 (x : S512x1.Idx → α) (h : S512x1.ShapeCasts S512) (u : Fin 512) :
    shapeCast S512 x h (ix1 u) = x (ix2 u (0 : Fin 1)) :=
  shapeCast_apply x h _ _ (by
    rw [Shape.rowMajor_val_two, Shape.rowMajor_val_one]
    show u.val * 1 + 0 = u.val
    omega)

end Layout8

/-- The lane sum of a `[2048,512]` array at row `q`. -/
theorem laneSum_2048x512 (src : FVec Ideal S2048x512 .f32) (h : S2048x512.Reduces [1] S2048) (hφ : FKind.Formats .f32)
    (hacc : (0x00000000#32 : BitVec 32) = FKind.add.neutral .f32 hφ) (q : Fin 2048) :
    multiReduction (F := Ideal) .add [1] S2048 src 0x00000000#32 h hφ hacc (ix1 q) = ∑ u : Fin 512, src (ix2 q u) := by
  refine (Ideal.multiReduction_add_single src 0x00000000#32 h hφ hacc (ix1 q)).trans ?_
  refine Finset.sum_congr rfl fun u _ => congrArg src ?_
  funext a
  match a with
  | ⟨0, _⟩ => rfl
  | ⟨1, _⟩ => rfl

/-- The left operand's row coordinate at output `i` is the output's row. -/
theorem mm_lhs_0 (i : S2048x512.Idx) (c : dot_S2048x512_S512x512_S2048x512_1_0_0_1_n_n.contr.Idx) :
    (dot_S2048x512_S512x512_S2048x512_1_0_0_1_n_n.lhsIdx i c 0).val = (i 0).val := by
  unfold DotDims.lhsIdx
  rw [dif_neg (show ¬(0 : Fin S2048x512.rank) ∈ dot_S2048x512_S512x512_S2048x512_1_0_0_1_n_n.lhsBatch by decide),
    dif_pos (show (0 : Fin S2048x512.rank) ∈ dot_S2048x512_S512x512_S2048x512_1_0_0_1_n_n.lhsNonContracting by decide)]
  rfl
/-- The left operand's column coordinate is the contraction coordinate. -/
theorem mm_lhs_1 (i : S2048x512.Idx) (c : dot_S2048x512_S512x512_S2048x512_1_0_0_1_n_n.contr.Idx) :
    (dot_S2048x512_S512x512_S2048x512_1_0_0_1_n_n.lhsIdx i c 1).val = (c ⟨0, by decide⟩).val :=
  dot_S2048x512_S512x512_S2048x512_1_0_0_1_n_n.lhsIdx_val_of_single rfl i c
/-- The right operand's row coordinate is the contraction coordinate. -/
theorem mm_rhs_0 (i : S2048x512.Idx) (c : dot_S2048x512_S512x512_S2048x512_1_0_0_1_n_n.contr.Idx) :
    (dot_S2048x512_S512x512_S2048x512_1_0_0_1_n_n.rhsIdx i c 0).val = (c ⟨0, by decide⟩).val :=
  dot_S2048x512_S512x512_S2048x512_1_0_0_1_n_n.rhsIdx_val_of_single rfl i c
/-- The right operand's column coordinate is the output's column. -/
theorem mm_rhs_1 (i : S2048x512.Idx) (c : dot_S2048x512_S512x512_S2048x512_1_0_0_1_n_n.contr.Idx) :
    (dot_S2048x512_S512x512_S2048x512_1_0_0_1_n_n.rhsIdx i c 1).val = (i 1).val := by
  unfold DotDims.rhsIdx
  rw [dif_neg (show ¬(1 : Fin S512x512.rank) ∈ dot_S2048x512_S512x512_S2048x512_1_0_0_1_n_n.rhsBatch by decide),
    dif_pos (show (1 : Fin S512x512.rank) ∈ dot_S2048x512_S512x512_S2048x512_1_0_0_1_n_n.rhsNonContracting by decide)]
  rfl

/-- The product `[2048,512] × [512,512]` into the zero accumulator, read at `(q, u)`. -/
theorem matmul_at (A : FVec Ideal S2048x512 .bf16) (B : FVec Ideal S512x512 .bf16) (q : Fin 2048) (u : Fin 512) :
    matmul dot_S2048x512_S512x512_S2048x512_1_0_0_1_n_n none A B (constant (F := Ideal) S2048x512 .f32 0x00000000#32) (ix2 q u)
      = ∑ f : Fin 512, A (ix2 q f) * B (ix2 f u) := by
  simp only [matmul]
  rw [Ideal.matmul_constant_zero_apply,
    ← Equiv.sum_comp (contrEquiv1 dot_S2048x512_S512x512_S2048x512_1_0_0_1_n_n 512 rfl rfl).symm]
  refine Finset.sum_congr rfl fun f _ => ?_
  have hk := contrEquiv1_symm_val dot_S2048x512_S512x512_S2048x512_1_0_0_1_n_n 512 rfl rfl f
  have el : dot_S2048x512_S512x512_S2048x512_1_0_0_1_n_n.lhsIdx (ix2 q u)
      ((contrEquiv1 dot_S2048x512_S512x512_S2048x512_1_0_0_1_n_n 512 rfl rfl).symm f) = ix2 q f :=
    funext fun a => Fin.ext (by
      match a with
      | ⟨0, _⟩ => exact mm_lhs_0 _ _
      | ⟨1, _⟩ => exact (mm_lhs_1 _ _).trans hk)
  have er : dot_S2048x512_S512x512_S2048x512_1_0_0_1_n_n.rhsIdx (ix2 q u)
      ((contrEquiv1 dot_S2048x512_S512x512_S2048x512_1_0_0_1_n_n 512 rfl rfl).symm f) = ix2 f u :=
    funext fun a => Fin.ext (by
      match a with
      | ⟨0, _⟩ => exact (mm_rhs_0 _ _).trans hk
      | ⟨1, _⟩ => exact mm_rhs_1 _ _)
  rw [el, er]

theorem pay8_at (r : Fin 8) (k : Fin 256) :
    k0_pay8 (F := Ideal) x0 w bv vv (ix3 r k (0 : Fin 1)) = tscore x0 w bv vv r k := by
  unfold k0_pay8 tscore
  refine (cast_2048x1_8x256x1 _ _ r k 0).trans ?_
  refine (cast_2048_2048x1 _ _ (row r k) 0).trans ?_
  refine (laneSum_2048x512 _ _ _ _ (row r k)).trans ?_
  refine Finset.sum_congr rfl fun u _ => ?_
  refine (mulf_apply _ _ _).trans ?_
  refine congrArg₂ (· * ·) ?_ ?_
  · show Ideal.tanh _ = _
    refine congrArg Ideal.tanh ?_
    refine (addf_apply _ _ _).trans ?_
    refine congrArg₂ (· + ·) ?_ ?_
    · refine (matmul_at _ _ (row r k) u).trans ?_
      refine Finset.sum_congr rfl fun f _ => ?_
      refine congrArg₂ (· * ·) ?_ ?_
      · exact cast_8x256x512_2048x512 x0 _ r k f
      · rfl
    · exact (broadcastTo_1b_ab_apply _ _ _ _).trans (shapeCast_a_1a_apply _ _ _ _)
  · exact (broadcastTo_1b_ab_apply _ _ _ _).trans ((shapeCast_a_1a_apply _ _ _ _).trans (cast_512x1_512 _ _ u))

section Layout9
variable {α : Type}

/-- An `[8,1]` column viewed `[8,1,1]` reads `(r, 0)` at `(r, u, v)`. -/
theorem cast_8x1_8x1x1 (x : S8x1.Idx → α) (h : S8x1.ShapeCasts S8x1x1) (r : Fin 8) (u v : Fin 1) :
    shapeCast S8x1x1 x h (ix3 r u v) = x (ix2 r (0 : Fin 1)) :=
  shapeCast_apply x h _ _ (by
    have := u.isLt
    have := v.isLt
    rw [Shape.rowMajor_val_three, Shape.rowMajor_val_two]
    show r.val * 1 + 0 = (r.val * 1 + u.val) * 1 + v.val
    omega)

/-- A per-row value `[8,1,1]` broadcast along the tile's tokens reads `(r, 0, 0)` at `(r, k, u)`. -/
theorem bcast_8x1x1_8x256x1 (x : S8x1x1.Idx → α) (h : S8x1x1.Broadcasts S8x256x1) (r : Fin 8) (k : Fin 256) (u : Fin 1) :
    broadcastTo S8x256x1 x h (ix3 r k u) = x (ix3 r (0 : Fin 1) (0 : Fin 1)) := by
  refine broadcastTo_apply x h (ix3 r k u) (ix3 r (0 : Fin 1) (0 : Fin 1)) fun ax => ?_
  match ax with
  | ⟨0, _⟩ => show r.val = if (8 : Nat) = 1 then 0 else r.val; rw [if_neg (by decide)]
  | ⟨1, _⟩ => show 0 = if (1 : Nat) = 1 then 0 else k.val; rw [if_pos rfl]
  | ⟨2, _⟩ => show 0 = if (1 : Nat) = 1 then 0 else u.val; rw [if_pos rfl]

end Layout9

/-- The maximum over the tokens of an `[8,256,1]` array, taken from `⊥`, at row `r`: the supremum of the row. -/
theorem laneMax_8x256x1 (src : FVec Ideal S8x256x1 .f32) (h : S8x256x1.Reduces [1] S8x1) (hφ : FKind.Formats .f32)
    (hacc : (0xFF800000#32 : BitVec 32) = FKind.maximumf.neutral .f32 hφ) (r : Fin 8) :
    multiReduction (F := Ideal) .maximumf [1] S8x1 src 0xFF800000#32 h hφ hacc (ix2 r (0 : Fin 1))
      = Finset.univ.sup fun k : Fin 256 => src (ix3 r k (0 : Fin 1)) := by
  refine (Ideal.multiReduction_maximumf_single src 0xFF800000#32 h hφ hacc (ix2 r (0 : Fin 1))).trans ?_
  have e : (src ∘ h.lift (ix2 r (0 : Fin 1))) = fun k : Fin 256 => src (ix3 r k (0 : Fin 1)) := by
    funext k
    refine congrArg src ?_
    funext a
    match a with
    | ⟨0, _⟩ => rfl
    | ⟨1, _⟩ => rfl
    | ⟨2, _⟩ => rfl
  show (Finset.univ : Finset (Fin 256)).fold max (Ideal.ofBits .f32 0xFF800000#32) (src ∘ h.lift (ix2 r (0 : Fin 1))) = _
  rw [e, ofBits_neg_inf]
  exact OnlineSoftmax.fold_max_bot _ _

/-- The sum over the tokens of an `[8,256,1]` array at row `r`. -/
theorem laneSum_8x256x1 (src : FVec Ideal S8x256x1 .f32) (h : S8x256x1.Reduces [1] S8x1) (hφ : FKind.Formats .f32)
    (hacc : (0x00000000#32 : BitVec 32) = FKind.add.neutral .f32 hφ) (r : Fin 8) :
    multiReduction (F := Ideal) .add [1] S8x1 src 0x00000000#32 h hφ hacc (ix2 r (0 : Fin 1))
      = ∑ k : Fin 256, src (ix3 r k (0 : Fin 1)) := by
  refine (Ideal.multiReduction_add_single src 0x00000000#32 h hφ hacc (ix2 r (0 : Fin 1))).trans ?_
  refine Finset.sum_congr rfl fun k _ => congrArg src ?_
  funext a
  match a with
  | ⟨0, _⟩ => rfl
  | ⟨1, _⟩ => rfl
  | ⟨2, _⟩ => rfl

theorem pay9_at (r : Fin 8) :
    k0_pay9 (F := Ideal) x0 w bv vv m0 (ix3 r (0 : Fin 1) (0 : Fin 1)) = newLevel x0 w bv vv m0 r := by
  unfold k0_pay9 newLevel
  refine (maximumf_apply _ _ _).trans ?_
  refine congrArg (max (m0 (ix3 r (0 : Fin 1) (0 : Fin 1)))) ?_
  refine (cast_8x1_8x1x1 _ _ r 0 0).trans ?_
  refine (laneMax_8x256x1 _ _ _ _ r).trans ?_
  exact Finset.sup_congr rfl fun k _ => pay8_at x0 w bv vv r k

theorem pay10_at (r : Fin 8) :
    k0_pay10 (F := Ideal) x0 w bv vv m0 (ix3 r (0 : Fin 1) (0 : Fin 1))
      = Ideal.exp (m0 (ix3 r (0 : Fin 1) (0 : Fin 1)) - newLevel x0 w bv vv m0 r) := by
  unfold k0_pay10
  show Ideal.exp (m0 (ix3 r (0 : Fin 1) (0 : Fin 1))
    - k0_pay9 (F := Ideal) x0 w bv vv m0 (ix3 r (0 : Fin 1) (0 : Fin 1))) = _
  rw [pay9_at]

theorem pay11_at (r : Fin 8) (k : Fin 256) :
    k0_pay11 (F := Ideal) x0 w bv vv m0 (ix3 r k (0 : Fin 1))
      = Ideal.exp (tscore x0 w bv vv r k - newLevel x0 w bv vv m0 r) := by
  unfold k0_pay11
  show Ideal.exp (k0_pay8 (F := Ideal) x0 w bv vv (ix3 r k (0 : Fin 1))
    - broadcastTo S8x256x1 (k0_pay9 (F := Ideal) x0 w bv vv m0) broadcasts_S8x1x1_S8x256x1 (ix3 r k (0 : Fin 1))) = _
  rw [pay8_at, bcast_8x1x1_8x256x1, pay9_at]

theorem pay12_at (r : Fin 8) :
    k0_pay12 (F := Ideal) x0 w bv vv m0 l0 (ix3 r (0 : Fin 1) (0 : Fin 1))
      = Ideal.exp (m0 (ix3 r (0 : Fin 1) (0 : Fin 1)) - newLevel x0 w bv vv m0 r) * l0 (ix3 r (0 : Fin 1) (0 : Fin 1))
        + ∑ k : Fin 256, Ideal.exp (tscore x0 w bv vv r k - newLevel x0 w bv vv m0 r) := by
  unfold k0_pay12
  refine (addf_apply _ _ _).trans ?_
  refine congrArg₂ (· + ·) ?_ ?_
  · refine (mulf_apply _ _ _).trans ?_
    rw [pay10_at]
  · refine (cast_8x1_8x1x1 _ _ r 0 0).trans ?_
    refine (laneSum_8x256x1 _ _ _ _ r).trans ?_
    exact Finset.sum_congr rfl fun k _ => pay11_at x0 w bv vv m0 r k

section Layout
variable {α : Type}

/-- An `[8,1,512]` array viewed `[8,512]` reads `(r, 0, f)` at `(r, f)`. -/
theorem cast_8x1x512_8x512 (x : S8x1x512.Idx → α) (h : S8x1x512.ShapeCasts S8x512) (r : Fin 8) (f : Fin 512) :
    shapeCast S8x512 x h (ix2 r f) = x (ix3 r (0 : Fin 1) f) :=
  shapeCast_apply x h _ _ (by
    rw [Shape.rowMajor_val_three, Shape.rowMajor_val_two]
    show (r.val * 1 + 0) * 512 + f.val = r.val * 512 + f.val
    omega)

/-- An `[8,1,1]` array viewed `[8,1]` reads `(r, 0, 0)` at `(r, u)`. -/
theorem cast_8x1x1_8x1 (x : S8x1x1.Idx → α) (h : S8x1x1.ShapeCasts S8x1) (r : Fin 8) (u : Fin 1) :
    shapeCast S8x1 x h (ix2 r u) = x (ix3 r (0 : Fin 1) (0 : Fin 1)) :=
  shapeCast_apply x h _ _ (by
    have := u.isLt
    rw [Shape.rowMajor_val_three, Shape.rowMajor_val_two]
    show (r.val * 1 + 0) * 1 + 0 = r.val * 1 + u.val
    omega)

/-- An `[8,1]` column broadcast along the lanes reads `(r, 0)` at `(r, f)`. -/
theorem bcast_8x1_8x512 (x : S8x1.Idx → α) (h : S8x1.Broadcasts S8x512) (r : Fin 8) (f : Fin 512) :
    broadcastTo S8x512 x h (ix2 r f) = x (ix2 r (0 : Fin 1)) := by
  refine broadcastTo_apply x h (ix2 r f) (ix2 r (0 : Fin 1)) fun ax => ?_
  match ax with
  | ⟨0, _⟩ => show r.val = if (8 : Nat) = 1 then 0 else r.val; rw [if_neg (by decide)]
  | ⟨1, _⟩ => show 0 = if (1 : Nat) = 1 then 0 else f.val; rw [if_pos rfl]

end Layout

theorem pay4_at (acc : Vec Ideal S8x1x512 .f32) (l : Vec Ideal S8x1x1 .f32) (r : Fin 8) (f : Fin 512) :
    k0_pay4 (F := Ideal) acc l (ix2 r f) = Ideal.div (acc (ix3 r (0 : Fin 1) f)) (l (ix3 r (0 : Fin 1) (0 : Fin 1))) := by
  unfold k0_pay4
  refine (divf_apply _ _ _).trans ?_
  rw [cast_8x1x512_8x512, bcast_8x1_8x512, cast_8x1x1_8x1]

theorem pay5_at (i : S8x1x1.Idx) : k0_pay5 (F := Ideal) i = ⊥ := by
  unfold k0_pay5
  rw [shapeCast_self]
  exact ofBits_neg_inf

theorem pay6_at (i : S8x1x1.Idx) : k0_pay6 (F := Ideal) i = 0 := by
  unfold k0_pay6
  rw [shapeCast_self]
  exact Ideal.ofBits_zero_f32

theorem pay7_at (i : S8x1x512.Idx) : k0_pay7 (F := Ideal) i = 0 := by
  unfold k0_pay7
  rw [shapeCast_self]
  exact Ideal.ofBits_zero_f32

end Cert.KernelIdeal.PayAt

end
-- ==== Proof.PayNum.lean ====
/-
  The new numerator row of one tile, read at an index over the extended reals: the old row rescaled, plus the
  tile's tokens weighted.
-/
import proofs.«170809_j48842368090703_2_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.PayNum

open Cert.KernelIdeal Cert.KernelIdeal.Gen Idealize.ShloMosaic Idealize.ShloMosaic.ValueIdx

/-! ## The layout operations and the token sum, at coordinates -/

/-- A per-token column [8,256,1] broadcast along the features, read at (r, k, f), is the column at (r, k, 0). -/
theorem bcast_tok (v : FVec Ideal S8x256x1 .f32) (h : S8x256x1.Broadcasts S8x256x512) (r : Fin 8) (k : Fin 256)
    (f : Fin 512) : broadcastTo S8x256x512 v h (ix3 r k f) = v (ix3 r k (0 : Fin 1)) :=
  broadcastTo_apply v h _ _ (fun a => by match a with | ⟨0, _⟩ => rfl | ⟨1, _⟩ => rfl | ⟨2, _⟩ => rfl)

/-- A per-row scalar [8,1,1] broadcast along the features, read at (r, 0, f), is the scalar at (r, 0, 0). -/
theorem bcast_row (v : FVec Ideal S8x1x1 .f32) (h : S8x1x1.Broadcasts S8x1x512) (r : Fin 8) (f : Fin 512) :
    broadcastTo S8x1x512 v h (ix3 r (0 : Fin 1) f) = v (ix3 r (0 : Fin 1) (0 : Fin 1)) :=
  broadcastTo_apply v h _ _ (fun a => by match a with | ⟨0, _⟩ => rfl | ⟨1, _⟩ => rfl | ⟨2, _⟩ => rfl)

/-- A matrix [8,512] cast to [8,1,512], read at (r, 0, f), is the matrix at (r, f). -/
theorem cast_row (v : FVec Ideal S8x512 .f32) (h : S8x512.ShapeCasts S8x1x512) (r : Fin 8) (f : Fin 512) :
    shapeCast S8x1x512 v h (ix3 r (0 : Fin 1) f) = v (ix2 r f) :=
  shapeCast_apply v h _ _ (by
    rw [Shape.rowMajor_val_two, Shape.rowMajor_val_three]
    show r.val * 512 + f.val = (r.val * 1 + 0) * 512 + f.val
    omega)

/-- The row (r, f) of the reduced shape with token `k` put back on the dropped axis is (r, k, f). -/
theorem lift_tok (h : S8x256x512.Reduces [1] S8x512) (r : Fin 8) (f : Fin 512) (k : Fin (S8x256x512.size 1)) :
    h.lift (ix2 r f) k = ix3 r (⟨k.val, k.isLt⟩ : Fin 256) f := by
  funext c; apply Fin.ext
  fin_cases c <;> rfl

/-- The sum over the tokens of a tile [8,256,512], read at (r, f). -/
theorem sum_tok (src : FVec Ideal S8x256x512 .f32) (h : S8x256x512.Reduces [1] S8x512) (hφ : FKind.Formats .f32)
    (hacc : (0x00000000#32 : BitVec FTy.f32.bits) = FKind.add.neutral .f32 hφ) (r : Fin 8) (f : Fin 512) :
    multiReduction .add [1] S8x512 src 0x00000000#32 h hφ hacc (ix2 r f) = ∑ k : Fin 256, src (ix3 r k f) := by
  refine (Ideal.multiReduction_add_single src _ h hφ hacc (ix2 r f)).trans ?_
  exact Finset.sum_congr rfl fun k _ => congrArg src (lift_tok h r f k)

/-! ## The numerator row -/

/-- The new numerator row at (r, 0, f): the old row times the rescaling factor of row `r`, plus the sum over the
    tile's tokens of the feature `f` of the token times the token's weight. -/
theorem pay2_at (x0 : Vec Ideal S8x256x512 .f32) (a0 : Vec Ideal S8x1x512 .f32) (v27 : FVec Ideal S8x1x1 .f32) (v30 : FVec Ideal S8x256x1 .f32) (r : Fin 8) (f : Fin 512) :
    k0_pay2 (F := Ideal) x0 v27 v30 a0 (ix3 r (0 : Fin 1) f)
      = v27 (ix3 r (0 : Fin 1) (0 : Fin 1)) * a0 (ix3 r (0 : Fin 1) f)
        + ∑ k : Fin 256, x0 (ix3 r k f) * v30 (ix3 r k (0 : Fin 1)) := by
  unfold k0_pay2
  rw [shapeCast_self]
  refine Eq.trans (addf_apply _ _ _) ?_
  refine congrArg₂ (· + ·) ?_ ?_
  · refine Eq.trans (mulf_apply _ _ _) ?_
    rw [bcast_row]
  · refine (cast_row _ _ r f).trans ?_
    refine (sum_tok _ _ _ _ r f).trans ?_
    refine Finset.sum_congr rfl fun k _ => ?_
    refine Eq.trans (mulf_apply _ _ _) ?_
    rw [bcast_tok]

end Cert.KernelIdeal.PayNum

end
-- ==== Proof.Tiles.lean ====
/-
  The 4096 tokens of a row, visited 256 at a time.

  Tile `j` (of 16) holds the tokens `256 j + k`, `k < 256`. The tokens seen before tile `j` are those below
  `256 j`; seeing tile `j` adds exactly its 256 tokens, and after tile 15 every token is seen. One tile's update of
  the running level, denominator and numerator, written as sums over `k < 256`, preserves the online-softmax
  invariant; when all scores are real numbers the new level is a real number.
-/
import proofs.«170809_j48842368090703_2_alg».proof.Proof.LibOnlineSoftmax

noncomputable section

open scoped BigOperators

namespace Cert.Tiles

open Idealize.ShloMosaic OnlineSoftmax

/-- Token `k` of tile `j`. -/
def tok (j : Fin 16) (k : Fin 256) : Fin 4096 := ⟨256 * j.val + k.val, by have := j.isLt; have := k.isLt; omega⟩

theorem tok_injective (j : Fin 16) : Function.Injective (tok j) := fun a b h => by
  have := congrArg Fin.val h; simp only [tok] at this; exact Fin.ext (by omega)

/-- The tokens of the tiles before tile number `j`. -/
def seen (j : ℕ) : Finset (Fin 4096) := Finset.univ.filter fun t => t.val < 256 * j

/-- The tokens of tile `j`. -/
def tile (j : Fin 16) : Finset (Fin 4096) := Finset.univ.map ⟨tok j, tok_injective j⟩

theorem seen_zero : seen 0 = ∅ := by
  ext t; simp [seen]

theorem seen_all : seen 16 = Finset.univ := by
  ext t; have := t.isLt; simp [seen]

theorem seen_succ (j : Fin 16) : seen (j.val + 1) = seen j.val ∪ tile j := by
  ext t
  simp only [seen, tile, Finset.mem_filter, Finset.mem_univ, true_and, Finset.mem_union, Finset.mem_map,
    Function.Embedding.coeFn_mk]
  constructor
  · intro h
    by_cases h' : t.val < 256 * j.val
    · exact Or.inl h'
    · refine Or.inr ⟨⟨t.val - 256 * j.val, by omega⟩, Fin.ext ?_⟩
      simp only [tok]; omega
  · rintro (h | ⟨k, rfl⟩)
    · omega
    · have := k.isLt; simp only [tok]; omega

theorem seen_disjoint (j : Fin 16) : Disjoint (seen j.val) (tile j) := by
  rw [Finset.disjoint_left]
  intro t h1 h2
  simp only [seen, Finset.mem_filter, Finset.mem_univ, true_and] at h1
  simp only [tile, Finset.mem_map, Finset.mem_univ, true_and, Function.Embedding.coeFn_mk] at h2
  obtain ⟨k, rfl⟩ := h2
  simp only [tok] at h1; omega

theorem sum_tile {M : Type*} [AddCommMonoid M] (j : Fin 16) (g : Fin 4096 → M) :
    ∑ t ∈ tile j, g t = ∑ k : Fin 256, g (tok j k) := by
  unfold tile; rw [Finset.sum_map]; rfl

theorem sup_tile (j : Fin 16) (s : Fin 4096 → EReal) :
    (tile j).sup s = Finset.univ.sup fun k : Fin 256 => s (tok j k) := by
  unfold tile; rw [Finset.sup_map]; rfl

/-- One tile, in the form the body computes it: sums over the 256 tokens of the tile, the value written to the
    left of its weight. -/
theorem inv_tile {s : Fin 4096 → EReal} {v : Fin 4096 → ℝ} (hs : ∀ t, s t ≠ ⊤) (hb : ∀ t, s t ≠ ⊥) (j : Fin 16)
    {m l acc : EReal} (h : Inv s v (seen j.val) m l acc) (hm : m ≠ ⊤) :
    (∃ r : ℝ, max m (Finset.univ.sup fun k : Fin 256 => s (tok j k)) = (r : EReal)) ∧
    Inv s v (seen (j.val + 1)) (max m (Finset.univ.sup fun k : Fin 256 => s (tok j k)))
      (Ideal.exp (m - max m (Finset.univ.sup fun k : Fin 256 => s (tok j k))) * l
        + ∑ k : Fin 256, Ideal.exp (s (tok j k) - max m (Finset.univ.sup fun k : Fin 256 => s (tok j k))))
      (Ideal.exp (m - max m (Finset.univ.sup fun k : Fin 256 => s (tok j k))) * acc
        + ∑ k : Fin 256, (v (tok j k) : EReal)
            * Ideal.exp (s (tok j k) - max m (Finset.univ.sup fun k : Fin 256 => s (tok j k)))) := by
  have hne : m ≠ ⊥ ∨ ∃ t ∈ tile j, s t ≠ ⊥ :=
    Or.inr ⟨tok j 0, by simp [tile], hb _⟩
  have key := h.tile hs (seen_disjoint j) hm hne
  rw [sup_tile, sum_tile, sum_tile, ← seen_succ] at key
  refine ⟨key.1, ?_⟩
  have e : ∀ k : Fin 256, (v (tok j k) : EReal)
        * Ideal.exp (s (tok j k) - max m (Finset.univ.sup fun k : Fin 256 => s (tok j k)))
      = Ideal.exp (s (tok j k) - max m (Finset.univ.sup fun k : Fin 256 => s (tok j k))) * (v (tok j k) : EReal) :=
    fun k => mul_comm _ _
  rw [Finset.sum_congr rfl fun k _ => e k]
  exact key.2

/-- A finite nonempty supremum of real numbers is a real number. -/
theorem sup_real {s : Fin 4096 → EReal} (hs : ∀ t, s t ≠ ⊤) (hb : ∀ t, s t ≠ ⊥) :
    ∃ r : ℝ, Finset.univ.sup s = (r : EReal) := by
  obtain ⟨r, hr⟩ := level_real (s := s) hs (τ := Finset.univ) (m := ⊥) (by simp) (Or.inr ⟨0, Finset.mem_univ _, hb 0⟩)
  exact ⟨r, by rw [← hr]; exact (max_eq_right bot_le).symm⟩

end Cert.Tiles

end
-- ==== Proof.Spec.lean ====
/-
  Additive-attention pooling, as one function of the four argument arrays.

  For batch row `p` and token `t` the score is
      s p t = ∑ u, tanh (∑ f, x[p,t,f] · W[f,u] + b[u]) · V[u,0],
  the level of a row is its largest score, the weight of a token is `exp (s p t - level)` divided by the sum of
  those exponentials over the row's tokens, and the pooled value is
      out[p,f] = ∑ t, x[p,t,f] · weight p t .
  Everything is stated on the extended reals; nothing here assumes the entries finite.
-/
import Idealize.ShloMosaic.PureOps.Ideal
import Idealize.ShloMosaic.Lib.ValueIdx

noncomputable section

open scoped BigOperators

namespace Cert.PoolSpec

open Idealize.ShloMosaic Idealize.ShloMosaic.ValueIdx

abbrev SX : Shape := ⟨3, ![32, 4096, 512]⟩
abbrev SW : Shape := ⟨2, ![512, 512]⟩
abbrev SB : Shape := ⟨1, ![512]⟩
abbrev SV : Shape := ⟨2, ![512, 1]⟩
abbrev SO : Shape := ⟨2, ![32, 512]⟩

variable (x : SX.Idx → EReal) (W : SW.Idx → EReal) (b : SB.Idx → EReal) (V : SV.Idx → EReal)

/-- The hidden unit `u` of token `t` of batch row `p`: `tanh (x[p,t,:] · W[:,u] + b[u])`. -/
def hidden (p : Fin 32) (t : Fin 4096) (u : Fin 512) : EReal :=
  Ideal.tanh ((∑ f : Fin 512, x (ix3 p t f) * W (ix2 f u)) + b (ix1 u))

/-- The score of token `t` of batch row `p`: the hidden units against the one column of `V`. -/
def score (p : Fin 32) (t : Fin 4096) : EReal :=
  ∑ u : Fin 512, hidden x W b p t u * V (ix2 u (0 : Fin 1))

/-- The level of batch row `p`: its largest score. -/
def level (p : Fin 32) : EReal := Finset.univ.sup (score x W b V p)

/-- The unnormalised weight of token `t`. -/
def expo (p : Fin 32) (t : Fin 4096) : EReal := Ideal.exp (score x W b V p t - level x W b V p)

/-- The softmax weight of token `t` among the tokens of row `p`. -/
def weight (p : Fin 32) (t : Fin 4096) : EReal :=
  Ideal.div (expo x W b V p t) (∑ k : Fin 4096, expo x W b V p k)

/-- The pooled array: the weighted sum of the tokens' feature vectors. -/
def pool : SO.Idx → EReal := fun i =>
  ∑ t : Fin 4096, x (ix3 (i 0) t (i 1)) * weight x W b V (i 0) t

end Cert.PoolSpec

end
-- ==== Proof.LibReal.lean ====
/-
  Real entries of extended-real arrays.

  * `IsReal x`: the extended real `x` is a real number; closed under sums, products, maxima and finite sums; the
    zero word of single precision is real; `|x| < +∞` makes `x` real; the coercion of the reals commutes with finite sums;
  * the usual finiteness precondition read entry by entry: where `all (|x| < +∞)` — the comparison of `|x|` with the
    broadcast `+∞` word, reduced by `and` from 1 over all axes into the scalar shape — is 1, every entry of `x` is real
    (`real_of_entry`, `real_of_all`), for an array of any shape.
-/
import Idealize.ShloMosaic.PureOps.Ideal
import Idealize.ShloMosaic.PureOps.Ideal.Laws
import Idealize.ShloMosaic.Lib.ValueIdx
import Idealize.ShloMosaic.Lib.ReduceAll

noncomputable section

namespace Cert.LibReal

open Idealize.ShloMosaic

/-- An extended real that is a real number. -/
def IsReal (x : EReal) : Prop := ∃ r : ℝ, x = (r : EReal)

theorem isReal_coe (r : ℝ) : IsReal (r : EReal) := ⟨r, rfl⟩
theorem isReal_zero_word : IsReal (Ideal.ofBits .f32 0x00000000#32) := ⟨0, by rw [Ideal.ofBits_zero_f32]; rfl⟩
theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx
theorem IsReal.sum {ι : Type*} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- `|x| < +∞` says `x` is a real number. -/
theorem isReal_of_abs_lt_top {x : EReal} (h : max x (-x) < ⊤) : IsReal x := by
  induction x using EReal.rec with
  | bot => simp at h
  | coe r => exact ⟨r, rfl⟩
  | top => simp at h

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The finiteness precondition, entry by entry -/

/-- The scalar shape has exactly one index, so a reduction over all axes has one result. -/
private instance subsingleton_scalar_idx : Subsingleton (⟨0, ![]⟩ : Shape).Idx := ⟨fun a b => funext fun d => d.elim0⟩

/-- The single-precision pattern `0x7F800000` (sign 0, exponent all ones, significand 0) denotes `+∞`. -/
theorem top_word : Ideal.ofBits .f32 0x7F800000#32 = ⊤ := by simp [Ideal.ofBits, Ideal.ieee]

/-- A Boolean as a one-bit word is 1 exactly when it is true. -/
theorem ofBool_eq_one (b : Bool) : BitVec.ofBool b = 1#1 ↔ b = true := by cases b <;> decide

/-- One entry. The comparison `|x| < c` at an index compares `max (x i) (-(x i))` with the value the scalar `c`
    broadcasts, here `+∞`; where it yields 1 the entry's absolute value is below `+∞`, so the entry is real. -/
theorem real_of_entry {s : Shape} (hb : (⟨0, ![]⟩ : Shape).BroadcastsInDim s (![] : Fin 0 → Fin s.rank))
    (x : FVec Ideal s .f32) (i : s.Idx)
    (e : cmpf .olt (Host.absf x) (broadcastInDim s ![] hb (constant ⟨0, ![]⟩ .f32 0x7F800000#32)) i = 1#1) :
    IsReal (x i) := by
  apply isReal_of_abs_lt_top
  have e' : Ideal.cmp .olt (max (x i) (-(x i))) (Ideal.ofBits .f32 0x7F800000#32) = 1#1 := e
  rw [top_word] at e'
  have e'' : BitVec.ofBool (decide (max (x i) (-(x i)) < ⊤)) = 1#1 := e'
  exact of_decide_eq_true ((ofBool_eq_one _).1 e'')

/-- One input. A conjunction (a reduction by `and` from 1) over all axes that is 1 met a 1 at every index, and
    each such 1 says that entry is real. -/
theorem real_of_all {s : Shape} {axes : List (Fin s.rank)}
    (hb : (⟨0, ![]⟩ : Shape).BroadcastsInDim s (![] : Fin 0 → Fin s.rank)) (hr : s.ReducesTo axes ⟨0, ![]⟩)
    (hu : 0 < (⟨0, ![]⟩ : Shape).numel) (x : FVec Ideal s .f32) (init : IVec ⟨0, ![]⟩ 1)
    (e : Host.reduce IntOp.andi (cmpf .olt (Host.absf x) (broadcastInDim s ![] hb (constant ⟨0, ![]⟩ .f32 0x7F800000#32)))
      init hr hu ValueIdx.ix0 = 1#1) (i : s.Idx) : IsReal (x i) :=
  real_of_entry hb x i (Host.reduce_andi_all _ init hr hu _ e i)

end Cert.LibReal

end
-- ==== Proof.Invariant.lean ====
/-
  The online-softmax invariant along the grid, and the output block it ends in.

  Write `x, W, b, V` for the four argument arrays, all of whose entries are real numbers. At grid point `n` (batch
  block `n / 16`, tile `n % 16`), for each of the 8 rows `r` of the block — batch row `p = 8 (n / 16) + r` — and each
  feature `f`, the level, denominator and numerator buffers hold the running maximum of the scores of the tokens
  seen so far (tiles 0 … n % 16), the sum of their weights against that level, and the sum of their weights times
  `x[p, token, f]`. After the last tile every token is seen and the stored quotient is the pooled value.
-/
import proofs.«170809_j48842368090703_2_alg».proof.Proof.State
import proofs.«170809_j48842368090703_2_alg».proof.Proof.Blocks
import proofs.«170809_j48842368090703_2_alg».proof.Proof.PayAt
import proofs.«170809_j48842368090703_2_alg».proof.Proof.PayNum
import proofs.«170809_j48842368090703_2_alg».proof.Proof.Tiles
import proofs.«170809_j48842368090703_2_alg».proof.Proof.Spec
import proofs.«170809_j48842368090703_2_alg».proof.Proof.LibReal

set_option maxRecDepth 16384

noncomputable section

open scoped BigOperators

namespace Cert.KernelIdeal.Invariant

open Cert.KernelIdeal Cert.KernelIdeal.Gen Idealize.ShloMosaic Idealize.ShloMosaic.TcCoe Idealize.SL.Sem
open Idealize.ShloMosaic.ValueIdx
open Cert.KernelIdeal.State Cert.KernelIdeal.Blocks Cert.KernelIdeal.PayAt Cert.KernelIdeal.PayNum
open Cert.Tiles Cert.PoolSpec Cert.LibReal OnlineSoftmax

/-! ## Real numbers -/

theorem isReal_tanh {y : EReal} (h : IsReal y) : IsReal (Ideal.tanh y) := by
  obtain ⟨r, rfl⟩ := h; exact ⟨Real.tanh r, rfl⟩

theorem isReal_ne_top {y : EReal} (h : IsReal y) : y ≠ ⊤ := by
  obtain ⟨r, rfl⟩ := h; exact EReal.coe_ne_top r

theorem isReal_ne_bot {y : EReal} (h : IsReal y) : y ≠ ⊥ := by
  obtain ⟨r, rfl⟩ := h; exact EReal.coe_ne_bot r

theorem isReal_coe_toReal {y : EReal} (h : IsReal y) : ((y.toReal : ℝ) : EReal) = y := by
  obtain ⟨r, rfl⟩ := h; rfl

section Spec

variable (x : SX.Idx → EReal) (W : SW.Idx → EReal) (b : SB.Idx → EReal) (V : SV.Idx → EReal)

/-- With real entries every score is a real number. -/
theorem score_real (hx : ∀ i, IsReal (x i)) (hW : ∀ i, IsReal (W i)) (hb : ∀ i, IsReal (b i)) (hV : ∀ i, IsReal (V i))
    (p : Fin 32) (q : Fin 4096) : IsReal (score x W b V p q) := by
  unfold score PoolSpec.hidden
  exact IsReal.sum _ _ fun u _ => IsReal.mul (isReal_tanh (IsReal.add (IsReal.sum _ _ fun f _ => IsReal.mul (hx _) (hW _)) (hb _))) (hV _)

end Spec

/-- Batch row `r` of the block of grid point `n`. -/
def rowOf (n : ℕ) (r : Fin 8) : Fin 32 := ⟨(8 * (n / 16) + r.val) % 32, Nat.mod_lt _ (by norm_num)⟩

/-- The tile of grid point `n`. -/
def tileOf (n : ℕ) : Fin 16 := ⟨n % 16, Nat.mod_lt _ (by norm_num)⟩

theorem rowOf_val (n : ℕ) (hn : n < 64) (r : Fin 8) : (rowOf n r).val = 8 * (n / 16) + r.val := by
  have := r.isLt
  show (8 * (n / 16) + r.val) % 32 = _
  exact Nat.mod_eq_of_lt (by omega)

section Run

variable (m : (ℓ : Loc nD τ sig) → Buf (Elt Ideal) ℓ) (c : Dev nD)

/-- The four argument arrays. -/
abbrev aX : SX.Idx → EReal := V m c main_arg0
abbrev aW : SW.Idx → EReal := V m c main_arg1
abbrev aB : SB.Idx → EReal := V m c main_arg2
abbrev aV : SV.Idx → EReal := V m c main_arg3

/-- Every entry of the four arrays is a real number. -/
structure Finite : Prop where
  x : ∀ i, IsReal (aX m c i)
  w : ∀ i, IsReal (aW m c i)
  b : ∀ i, IsReal (aB m c i)
  v : ∀ i, IsReal (aV m c i)

/-- The scores of the tile staged at point `t` are the row's scores at the tile's tokens. -/
theorem tscore_eq (t : Fin cfg0.N) (r : Fin 8) (k : Fin 256) :
    tscore (iblk m c 0 t) (iblk m c 1 t) (iblk m c 2 t) (iblk m c 3 t) r k
      = score (aX m c) (aW m c) (aB m c) (aV m c) (rowOf t.val r) (tok (tileOf t.val) k) := by
  have hN : t.val < 64 := lt_of_lt_of_eq t.isLt (show cfg0.N = 64 from N_0)
  unfold tscore score PoolSpec.hidden
  rw [blk1_eq, blk2_eq, blk3_eq]
  refine Finset.sum_congr rfl fun u _ => ?_
  congr 3
  refine Finset.sum_congr rfl fun f _ => ?_
  rw [blk0_at m c t r k f (rowOf t.val r) (tok (tileOf t.val) k) (rowOf_val t.val hN r) rfl]

end Run

/-! ## One tile's update, entry by entry -/

section Update

variable (x0 : Vec Ideal S8x256x512 .f32) (w : Vec Ideal S512x512 .f32) (bv : Vec Ideal S512 .f32)
  (vv : Vec Ideal S512x1 .f32) (s : Carried Ideal)

theorem upd_level (r : Fin 8) : (upd x0 w bv vv s).1 (ix3 r (0 : Fin 1) (0 : Fin 1)) = newLevel x0 w bv vv s.1 r := by
  show k0_pay3 (k0_pay9 x0 w bv vv s.1) (ix3 r (0 : Fin 1) (0 : Fin 1)) = _
  unfold k0_pay3
  rw [shapeCast_self]
  exact pay9_at x0 w bv vv s.1 r

theorem upd_den (r : Fin 8) :
    (upd x0 w bv vv s).2.1 (ix3 r (0 : Fin 1) (0 : Fin 1))
      = Ideal.exp (s.1 (ix3 r (0 : Fin 1) (0 : Fin 1)) - newLevel x0 w bv vv s.1 r) * s.2.1 (ix3 r (0 : Fin 1) (0 : Fin 1))
        + ∑ k : Fin 256, Ideal.exp (tscore x0 w bv vv r k - newLevel x0 w bv vv s.1 r) := by
  show k0_pay1 (k0_pay12 x0 w bv vv s.1 s.2.1) (ix3 r (0 : Fin 1) (0 : Fin 1)) = _
  unfold k0_pay1
  rw [shapeCast_self]
  exact pay12_at x0 w bv vv s.1 s.2.1 r

theorem upd_num (r : Fin 8) (f : Fin 512) :
    (upd x0 w bv vv s).2.2 (ix3 r (0 : Fin 1) f)
      = Ideal.exp (s.1 (ix3 r (0 : Fin 1) (0 : Fin 1)) - newLevel x0 w bv vv s.1 r) * s.2.2 (ix3 r (0 : Fin 1) f)
        + ∑ k : Fin 256, x0 (ix3 r k f) * Ideal.exp (tscore x0 w bv vv r k - newLevel x0 w bv vv s.1 r) := by
  show k0_pay2 x0 (k0_pay10 x0 w bv vv s.1) (k0_pay11 x0 w bv vv s.1) s.2.2 (ix3 r (0 : Fin 1) f) = _
  rw [PayNum.pay2_at, pay10_at]
  congr 1
  exact Finset.sum_congr rfl fun k _ => by rw [pay11_at]

/-- One tile preserves the invariant of a row, for any scores `S` and values `v` that the tile's block shows at its
    256 tokens, and leaves a real level. -/
theorem step_abs (S : Fin 4096 → EReal) (v : Fin 4096 → ℝ) (j : Fin 16) (r : Fin 8) (f : Fin 512)
    (hS : ∀ q, IsReal (S q)) (eT : ∀ k, tscore x0 w bv vv r k = S (tok j k))
    (eX : ∀ k, x0 (ix3 r k f) = (v (tok j k) : EReal))
    (hm : s.1 (ix3 r (0 : Fin 1) (0 : Fin 1)) ≠ ⊤) (h : Inv S v (seen j.val) (s.1 (ix3 r (0 : Fin 1) (0 : Fin 1))) (s.2.1 (ix3 r (0 : Fin 1) (0 : Fin 1))) (s.2.2 (ix3 r (0 : Fin 1) f))) :
    (∃ ρ : ℝ, (upd x0 w bv vv s).1 (ix3 r (0 : Fin 1) (0 : Fin 1)) = (ρ : EReal))
      ∧ Inv S v (seen (j.val + 1)) ((upd x0 w bv vv s).1 (ix3 r (0 : Fin 1) (0 : Fin 1))) ((upd x0 w bv vv s).2.1 (ix3 r (0 : Fin 1) (0 : Fin 1)))
          ((upd x0 w bv vv s).2.2 (ix3 r (0 : Fin 1) f)) := by
  have key := inv_tile (s := S) (v := v) (fun q => isReal_ne_top (hS q)) (fun q => isReal_ne_bot (hS q)) j h hm
  have eT' : tscore x0 w bv vv r = fun k => S (tok j k) := funext eT
  have eL : newLevel x0 w bv vv s.1 r = max (s.1 (ix3 r (0 : Fin 1) (0 : Fin 1))) (Finset.univ.sup fun k : Fin 256 => S (tok j k)) := by
    unfold newLevel; rw [eT']
  generalize max (s.1 (ix3 r (0 : Fin 1) (0 : Fin 1))) (Finset.univ.sup fun k : Fin 256 => S (tok j k)) = M' at key eL
  have e1 : (upd x0 w bv vv s).1 (ix3 r (0 : Fin 1) (0 : Fin 1)) = M' := (upd_level x0 w bv vv s r).trans eL
  have e2 : (upd x0 w bv vv s).2.1 (ix3 r (0 : Fin 1) (0 : Fin 1))
      = Ideal.exp (s.1 (ix3 r (0 : Fin 1) (0 : Fin 1)) - M') * s.2.1 (ix3 r (0 : Fin 1) (0 : Fin 1)) + ∑ k : Fin 256, Ideal.exp (S (tok j k) - M') := by
    rw [upd_den x0 w bv vv s r, eL]
    congr 1
    exact Finset.sum_congr rfl fun k _ => by rw [eT k]
  have e3 : (upd x0 w bv vv s).2.2 (ix3 r (0 : Fin 1) f)
      = Ideal.exp (s.1 (ix3 r (0 : Fin 1) (0 : Fin 1)) - M') * s.2.2 (ix3 r (0 : Fin 1) f)
        + ∑ k : Fin 256, (v (tok j k) : EReal) * Ideal.exp (S (tok j k) - M') := by
    rw [upd_num x0 w bv vv s r f, eL]
    congr 1
    exact Finset.sum_congr rfl fun k _ => by rw [eT k, eX k]
  rw [e1, e2, e3]
  exact key

end Update

section Run

variable (m : (ℓ : Loc nD τ sig) → Buf (Elt Ideal) ℓ) (c : Dev nD)

/-- The values weighted at row `p`, feature `f`: the entries `x[p, ·, f]` as real numbers. -/
def vals (p : Fin 32) (f : Fin 512) (q : Fin 4096) : ℝ := (aX m c (ix3 p q f)).toReal

/-- The invariant of row `r`, feature `f` of the block of point `n`, with the tokens of `j` tiles seen. -/
def Holds (n : ℕ) (j : ℕ) (r : Fin 8) (f : Fin 512) (s : Carried Ideal) : Prop :=
  Inv (score (aX m c) (aW m c) (aB m c) (aV m c) (rowOf n r)) (vals m c (rowOf n r) f) (seen j) (s.1 (ix3 r (0 : Fin 1) (0 : Fin 1))) (s.2.1 (ix3 r (0 : Fin 1) (0 : Fin 1))) (s.2.2 (ix3 r (0 : Fin 1) f))

/-- One tile preserves the invariant, and leaves a real level. -/
theorem step (fin : Finite m c) (t : Fin cfg0.N) (r : Fin 8) (f : Fin 512) (s : Carried Ideal)
    (hm : s.1 (ix3 r (0 : Fin 1) (0 : Fin 1)) ≠ ⊤) (h : Holds m c t.val (t.val % 16) r f s) :
    (∃ ρ : ℝ, (upd (iblk m c 0 t) (iblk m c 1 t) (iblk m c 2 t) (iblk m c 3 t) s).1 (ix3 r (0 : Fin 1) (0 : Fin 1)) = (ρ : EReal))
      ∧ Holds m c t.val (t.val % 16 + 1) r f (upd (iblk m c 0 t) (iblk m c 1 t) (iblk m c 2 t) (iblk m c 3 t) s) := by
  have hN : t.val < 64 := lt_of_lt_of_eq t.isLt (show cfg0.N = 64 from N_0)
  have hs : ∀ q, IsReal (score (aX m c) (aW m c) (aB m c) (aV m c) (rowOf t.val r) q) :=
    fun q => score_real _ _ _ _ fin.x fin.w fin.b fin.v (rowOf t.val r) q
  exact step_abs (iblk m c 0 t) (iblk m c 1 t) (iblk m c 2 t) (iblk m c 3 t) s (score (aX m c) (aW m c) (aB m c) (aV m c) (rowOf t.val r)) (vals m c (rowOf t.val r) f) (tileOf t.val) r f hs
    (tscore_eq m c t r)
    (fun k => (blk0_at m c t r k f (rowOf t.val r) (tok (tileOf t.val) k) (rowOf_val t.val hN r) rfl).trans
      (isReal_coe_toReal (fin.x _)).symm)
    hm h

/-- What is claimed of the carried buffers after point `n`. -/
def After (n : ℕ) (h : n < cfg0.N) (r : Fin 8) (f : Fin 512) : Prop :=
  (∃ ρ : ℝ, (outsAt0 m c n h).2.1 (ix3 r (0 : Fin 1) (0 : Fin 1)) = (ρ : EReal))
    ∧ Holds m c n (n % 16 + 1) r f (outsAt0 m c n h).2

/-- The first tile of a batch block: from level −∞ and empty sums. -/
theorem after_first (fin : Finite m c) (t : Fin cfg0.N) (h0 : t.val % 16 = 0) (r : Fin 8) (f : Fin 512) :
    After m c t.val t.isLt r f := by
  unfold After
  rw [carried_first m c t h0]
  refine step m c fin t r f start ?_ ?_
  · show k0_pay5 (F := Ideal) (ix3 r (0 : Fin 1) (0 : Fin 1)) ≠ ⊤
    rw [pay5_at]; exact bot_ne_top
  · unfold Holds
    show Inv _ _ _ (k0_pay5 (F := Ideal) (ix3 r (0 : Fin 1) (0 : Fin 1))) (k0_pay6 (F := Ideal) (ix3 r (0 : Fin 1) (0 : Fin 1))) (k0_pay7 (F := Ideal) (ix3 r (0 : Fin 1) f))
    rw [pay5_at, pay6_at, pay7_at, h0, seen_zero]
    exact Inv.init _ _

/-- Any other tile: from what the tile before left. -/
theorem after_next (fin : Finite m c) (t : Fin cfg0.N) (h0 : ¬t.val % 16 = 0) (r : Fin 8) (f : Fin 512)
    (ih : After m c (t.val - 1) (Nat.lt_of_le_of_lt (Nat.sub_le _ _) t.isLt) r f) :
    After m c t.val t.isLt r f := by
  unfold After
  rw [carried_next m c t h0]
  obtain ⟨⟨ρ, hρ⟩, hinv⟩ := ih
  have hrow : rowOf (t.val - 1) r = rowOf t.val r := by
    unfold rowOf; congr 2; omega
  have hseen : (t.val - 1) % 16 + 1 = t.val % 16 := by omega
  refine step m c fin t r f _ ?_ ?_
  · rw [hρ]; exact EReal.coe_ne_top ρ
  · unfold Holds at hinv ⊢
    rw [hrow, hseen] at hinv
    exact hinv

/-- The invariant after every grid point. -/
theorem after_all (fin : Finite m c) (n : ℕ) : ∀ (h : n < cfg0.N) (r : Fin 8) (f : Fin 512), After m c n h r f := by
  induction n with
  | zero => intro h r f; exact after_first m c fin ⟨0, h⟩ rfl r f
  | succ n ih =>
    intro h r f
    by_cases h0 : (n + 1) % 16 = 0
    · exact after_first m c fin ⟨n + 1, h⟩ h0 r f
    · exact after_next m c fin ⟨n + 1, h⟩ h0 r f (ih _ r f)

/-- At the last tile of a batch block the output block holds the pooled values of its rows. -/
theorem out_at_last (fin : Finite m c) (t : Fin cfg0.N) (h1 : t.val % 16 = 15) (r : Fin 8) (f : Fin 512) :
    (outsAt0 m c t.val t.isLt).1 (ix2 r f) = pool (aX m c) (aW m c) (aB m c) (aV m c) (ix2 (rowOf t.val r) f) := by
  rw [out_last m c t h1, pay4_at]
  obtain ⟨⟨ρ, hρ⟩, hinv⟩ := after_all m c fin t.val t.isLt r f
  unfold Holds at hinv
  have hs : ∀ q, IsReal (score (aX m c) (aW m c) (aB m c) (aV m c) (rowOf t.val r) q) :=
    fun q => score_real _ _ _ _ fin.x fin.w fin.b fin.v (rowOf t.val r) q
  rw [show t.val % 16 + 1 = 16 by omega, seen_all, hρ] at hinv
  obtain ⟨M, hM⟩ := sup_real (s := score (aX m c) (aW m c) (aB m c) (aV m c) (rowOf t.val r)) (fun q => isReal_ne_top (hs q)) (fun q => isReal_ne_bot (hs q))
  rw [hinv.result (fun q => isReal_ne_top (hs q)) ⟨0, isReal_ne_bot (hs 0)⟩ M]
  unfold PoolSpec.pool weight expo level
  show _ = ∑ q : Fin 4096, aX m c (ix3 (rowOf t.val r) q f) * _
  rw [hM]
  refine Finset.sum_congr rfl fun q _ => ?_
  rw [mul_comm]
  congr 1
  exact isReal_coe_toReal (fin.x _)

end Run

end Cert.KernelIdeal.Invariant

end
-- ==== Proof.KernelValue.lean ====
/-
  The result array after the run.

  The output block of batch block `i` is written back once, after the block's last tile (grid point `16 i + 15`),
  and holds rows `8 i … 8 i + 7`, all 512 features. The four write-backs cover the array, so the array ends at
  the pooled values.
-/
import proofs.«170809_j48842368090703_2_alg».proof.Proof.Invariant

set_option maxRecDepth 16384

noncomputable section

namespace Cert.KernelIdeal.PoolValue

open Cert.KernelIdeal Cert.KernelIdeal.Gen Idealize.ShloMosaic Idealize.ShloMosaic.TcCoe Idealize.SL.Sem
open Idealize.ShloMosaic.ValueIdx
open Idealize.ShloMosaic.Pipeline (Dat)
open Cert.KernelIdeal.Blocks Cert.KernelIdeal.Invariant Cert.PoolSpec

variable (m : (ℓ : Loc nD τ sig) → Buf (Elt Ideal) ℓ) (ρ : Dev nD → PrngReg)

/-- What a write-back of the output block writes is the block of the pooled array. -/
theorem flushed_eq (c : Dev nD) (fin : Finite m c) (t : Fin cfg0.N) (hf : (cfg0.win 4).flush t = true) :
    (dats m 0 c).flushed 4 t = ((cfg0.win 4).blk t).view.read (Elt Ideal) (PoolSpec.pool (aX m c) (aW m c) (aB m c) (aV m c)) := by
  have h15 : t.val % 16 = 15 := (flush0_4 t).mp hf
  have hN : t.val < 64 := lt_of_lt_of_eq t.isLt (show cfg0.N = 64 from N_0)
  rw [Cert.KernelIdeal.Value.flushed4]
  funext y
  obtain ⟨r, f, rfl⟩ : ∃ (r : Fin 8) (f : Fin 512), y = ix2 r f := ⟨y 0, y 1, eq_ix2 y⟩
  show (outsAt0 m c t.val t.isLt).1 (ix2 r f) = PoolSpec.pool (aX m c) (aW m c) (aB m c) (aV m c) (((cfg0.win 4).blk t).view.emb (ix2 r f))
  rw [out_at_last m c fin t h15 r f]
  congr 1
  funext a
  apply Fin.ext
  have hi := idx4 t
  match a with
  | ⟨0, _⟩ => show (rowOf t.val r).val = win0_4.index t 0 * 8 + 1 * r.val; rw [rowOf_val t.val hN r, hi.1]; omega
  | ⟨1, _⟩ => show f.val = win0_4.index t 1 * 512 + 1 * f.val; rw [hi.2]; omega

/-- An index of the result array is in point `t`'s block iff each coordinate is in the block's range. -/
theorem mem_blk (t : Fin cfg0.N) (i : S32x512.Idx) :
    i ∈ ((cfg0.win 4).blk t).view.set ↔ ∀ a : Fin 2, win0_4.index t a * S8x512.size a ≤ (i a).val
      ∧ (i a).val < win0_4.index t a * S8x512.size a + S8x512.size a := by
  show i ∈ ((View.whole main_v0).slice (win0_4.rect t)).set ↔ _
  rw [View.set_slice_whole, Rect.mem_set_unit]
  exact Iff.rfl

/-- Row `i₀` is written back after the last tile of batch block `i₀ / 8`. -/
theorem cover (i : S32x512.Idx) :
    ∃ t : Fin cfg0.N, (cfg0.win 4).flush t = true ∧ i ∈ ((cfg0.win 4).blk t).view.set := by
  have h0 : (i 0).val < 32 := (i 0).isLt
  have h1 : (i 1).val < 512 := (i 1).isLt
  have hN : cfg0.N = 64 := N_0
  have hb : 16 * ((i 0).val / 8) + 15 < cfg0.N := by rw [hN]; omega
  refine ⟨⟨16 * ((i 0).val / 8) + 15, hb⟩, (flush0_4 _).mpr (by show (16 * ((i 0).val / 8) + 15) % 16 = 15; omega), ?_⟩
  rw [mem_blk]
  have hi := idx4 ⟨16 * ((i 0).val / 8) + 15, hb⟩
  have e0 : win0_4.index ⟨16 * ((i 0).val / 8) + 15, hb⟩ 0 = (i 0).val / 8 := by
    rw [hi.1]; show (16 * ((i 0).val / 8) + 15) / 16 = _; omega
  intro a
  match a with
  | ⟨0, _⟩ =>
    show win0_4.index ⟨16 * ((i 0).val / 8) + 15, hb⟩ 0 * 8 ≤ (i 0).val
      ∧ (i 0).val < win0_4.index ⟨16 * ((i 0).val / 8) + 15, hb⟩ 0 * 8 + 8
    rw [e0]; omega
  | ⟨1, _⟩ =>
    show win0_4.index ⟨16 * ((i 0).val / 8) + 15, hb⟩ 1 * 512 ≤ (i 1).val
      ∧ (i 1).val < win0_4.index ⟨16 * ((i 0).val / 8) + 15, hb⟩ 1 * 512 + 512
    rw [hi.2]; omega

/-- The result array after the run is the pooled array. -/
theorem final (c : Dev nD) (fin : Finite m c) : (dats m 0 c).arrAt 4 cfg0.N = PoolSpec.pool (aX m c) (aW m c) (aB m c) (aV m c) :=
  (dats m 0 c).arrAt_eq_of_cover 4 (PoolSpec.pool (aX m c) (aW m c) (aB m c) (aV m c)) (flushed_eq m c fin) cover

/-- The run: the result array at the pooled array, the arguments unchanged. -/
theorem run (fin : ∀ c, Finite m c) :
    θ_run defs (onTc (τ := τ) (main (F := Ideal))) ⟨m, fun _ => 0, ρ⟩ fun r => ∀ c : Dev nD,
      r.2.mem ((c : Thread nD τ).loc main_v0) = PoolSpec.pool (aX m c) (aW m c) (aB m c) (aV m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (fin c)), (h c).2⟩)
    (Cert.KernelIdeal.Value.run_blocks m ρ)

end Cert.KernelIdeal.PoolValue

end
-- ==== Proof.RefValue.lean ====
/-
  The reference program's result is the pooled array of the specification.

  The reference computes, stage by stage: the hidden units `tanh (x · W + b)`, the scores (the hidden units against
  the one column of `V`), each batch row's largest score (a maximum over the tokens started from `-∞`, and once more
  against a broadcast `-∞`), the exponentials of the scores less that level, their sum over the tokens (started
  from zero), the quotients, and the sum over the tokens of the features times the quotients (started from zero).
  Read at an index each stage is the specification's formula of the same name; nothing is assumed of the entries.
-/
import proofs.«170809_j48842368090703_2_alg».proof.Proof.Gen.ReferenceIdeal.Read
import proofs.«170809_j48842368090703_2_alg».proof.Proof.Spec
import proofs.«170809_j48842368090703_2_alg».proof.Proof.LibOnlineSoftmax
import Idealize.ShloMosaic.PureOps.Ideal.Laws
import Idealize.ShloMosaic.PureOps.Reduce
import Idealize.ShloMosaic.Lib.ValueIdx
import Idealize.ShloMosaic.Lib.Pipeline.Value

noncomputable section

open scoped BigOperators

namespace Cert.PoolRef

open Cert.ReferenceIdeal Cert.ReferenceIdeal.Gen Cert.ReferenceIdeal.Read Idealize.ShloMosaic
  Idealize.ShloMosaic.ValueIdx Cert.PoolSpec

variable (x0 : (⟨S32x4096x512, .f32⟩ : BufTy).Contents (Elt Ideal)) (x1 : (⟨S512x512, .f32⟩ : BufTy).Contents (Elt Ideal))
  (x2 : (⟨S512, .f32⟩ : BufTy).Contents (Elt Ideal)) (x3 : (⟨S512x1, .f32⟩ : BufTy).Contents (Elt Ideal))

/-! ## The index functions of the stages, at coordinates -/

theorem lidx_v0 (p : Fin 32) (t : Fin 4096) (u k : Fin 512) : lidx_main_v0 (ix3 p t u) k = ix3 p t k :=
  funext fun a => Fin.ext (by match a with | ⟨0, _⟩ => rfl | ⟨1, _⟩ => rfl | ⟨2, _⟩ => rfl)

theorem ridx_v0 (p : Fin 32) (t : Fin 4096) (u k : Fin 512) : ridx_main_v0 (ix3 p t u) k = ix2 k u :=
  funext fun a => Fin.ext (by match a with | ⟨0, _⟩ => rfl | ⟨1, _⟩ => rfl)

theorem idx_v1_v2 (p : Fin 32) (t : Fin 4096) (u : Fin 512) : idx_main_v1 (idx_main_v2 (ix3 p t u)) = ix1 u :=
  funext fun a => Fin.ext (by match a with | ⟨0, _⟩ => rfl)

theorem lidx_v5 (p : Fin 32) (t : Fin 4096) (u : Fin 512) : lidx_main_v5 (ix3 p t (0 : Fin 1)) u = ix3 p t u :=
  funext fun a => Fin.ext (by match a with | ⟨0, _⟩ => rfl | ⟨1, _⟩ => rfl | ⟨2, _⟩ => rfl)

theorem ridx_v5 (p : Fin 32) (t : Fin 4096) (u : Fin 512) : ridx_main_v5 (ix3 p t (0 : Fin 1)) u = ix2 u (0 : Fin 1) :=
  funext fun a => Fin.ext (by match a with | ⟨0, _⟩ => rfl | ⟨1, _⟩ => rfl)

theorem idx_v9_v10 (p : Fin 32) (t : Fin 4096) : idx_main_v9 (idx_main_v10 (ix3 p t (0 : Fin 1))) = ix2 p (0 : Fin 1) :=
  funext fun a => Fin.ext (by match a with | ⟨0, _⟩ => rfl | ⟨1, _⟩ => rfl)

theorem idx_v13 (p : Fin 32) (k : Fin 4096) : idx_main_v13 (ix2 p (0 : Fin 1)) k = ix3 p k (0 : Fin 1) :=
  funext fun a => Fin.ext (by match a with | ⟨0, _⟩ => rfl | ⟨1, _⟩ => rfl | ⟨2, _⟩ => rfl)

theorem idx_v14_v15 (p : Fin 32) (t : Fin 4096) : idx_main_v14 (idx_main_v15 (ix3 p t (0 : Fin 1))) = ix2 p (0 : Fin 1) :=
  funext fun a => Fin.ext (by match a with | ⟨0, _⟩ => rfl | ⟨1, _⟩ => rfl)

theorem idx_v17 (p : Fin 32) (t : Fin 4096) (f : Fin 512) : idx_main_v17 (ix3 p t f) = ix3 p t (0 : Fin 1) :=
  funext fun a => Fin.ext (by match a with | ⟨0, _⟩ => rfl | ⟨1, _⟩ => rfl | ⟨2, _⟩ => rfl)

theorem idx_v19 (p : Fin 32) (f : Fin 512) (k : Fin 4096) : idx_main_v19 (ix2 p f) k = ix3 p k f :=
  funext fun a => Fin.ext (by match a with | ⟨0, _⟩ => rfl | ⟨1, _⟩ => rfl | ⟨2, _⟩ => rfl)

/-- The single-precision pattern `0xFF800000` (sign 1, exponent all ones, significand 0) denotes `-∞`. -/
theorem bot_word : Ideal.ofBits .f32 0xFF800000#32 = ⊥ := by simp [Ideal.ofBits, Ideal.ieee]

/-! ## The stages -/

/-- The hidden units. -/
theorem hidden_at (p : Fin 32) (t : Fin 4096) (u : Fin 512) :
    val_main_v4 (F := Ideal) x0 x1 x2 (ix3 p t u) = hidden x0 x1 x2 p t u := by
  rw [val_main_v4_apply, val_main_v3_apply, val_main_v0_apply, val_main_v2_apply, val_main_v1_apply, idx_v1_v2]
  simp only [lidx_v0, ridx_v0, Ideal.hostUnary_tanh_def, Ideal.addf_def]
  rfl

/-- The scores. -/
theorem score_at (p : Fin 32) (t : Fin 4096) :
    val_main_v5 (F := Ideal) x0 x1 x2 x3 (ix3 p t (0 : Fin 1)) = score x0 x1 x2 x3 p t := by
  rw [val_main_v5_apply]
  unfold score
  refine Finset.sum_congr rfl fun u _ => ?_
  rw [lidx_v5, ridx_v5, hidden_at]

/-- The batch row `p` of the reduced shape with token `k` put back on the dropped axis is (p, k, 0). -/
theorem lift_row (h : S32x4096x1.Reduces [1] S32x1) (p : Fin 32) (k : Fin (S32x4096x1.size 1)) :
    h.lift (ix2 p (0 : Fin 1)) k = ix3 p (⟨k.val, k.isLt⟩ : Fin 4096) (0 : Fin 1) := by
  funext c; apply Fin.ext
  fin_cases c <;> rfl

/-- The maximum over the tokens, started from `-∞`: the largest score of the row. -/
theorem rowmax_at (p : Fin 32) :
    val_main_v6 (F := Ideal) x0 x1 x2 x3 (ix2 p (0 : Fin 1)) = level x0 x1 x2 x3 p := by
  have h : S32x4096x1.Reduces [1] S32x1 := by decide
  unfold val_main_v6
  rw [Host.reduce_eq_fold_single FloatOps.maximumf _ _ reducesTo_S32x4096x1_S32x1_d1 h h_S_, val_main_cst_apply,
    Ideal.ofBits_def, bot_word]
  have hf : (val_main_v5 (F := Ideal) x0 x1 x2 x3 ∘ h.lift (ix2 p (0 : Fin 1)))
      = fun k : Fin 4096 => score x0 x1 x2 x3 p k :=
    funext fun k => by
      show val_main_v5 (F := Ideal) x0 x1 x2 x3 (h.lift (ix2 p (0 : Fin 1)) k) = _
      rw [lift_row h p k, score_at]
      rfl
  refine Eq.trans (congrArg (fun f => Finset.fold max (⊥ : EReal) f (Finset.univ : Finset (Fin 4096))) hf) ?_
  exact OnlineSoftmax.fold_max_bot _ _

/-- The level: the maximum once more against a broadcast `-∞`. -/
theorem level_at (p : Fin 32) :
    val_main_v8 (F := Ideal) x0 x1 x2 x3 (ix2 p (0 : Fin 1)) = level x0 x1 x2 x3 p := by
  rw [val_main_v8_apply, val_main_v7_apply, val_main_cst_0_apply, rowmax_at, Ideal.ofBits_def, bot_word,
    Ideal.maximumf_def]
  exact max_bot_left _

/-- The exponentials. -/
theorem expo_at (p : Fin 32) (t : Fin 4096) :
    val_main_v12 (F := Ideal) x0 x1 x2 x3 (ix3 p t (0 : Fin 1)) = expo x0 x1 x2 x3 p t := by
  rw [val_main_v12_apply, val_main_v11_apply, val_main_v10_apply, val_main_v9_apply, idx_v9_v10, score_at, level_at]
  simp only [Ideal.hostUnary_exp_def, Ideal.subf_def]
  rfl

/-- The denominators. -/
theorem denom_at (p : Fin 32) :
    val_main_v13 (F := Ideal) x0 x1 x2 x3 (ix2 p (0 : Fin 1)) = ∑ k : Fin 4096, expo x0 x1 x2 x3 p k := by
  rw [val_main_v13_apply, val_main_cst_1_apply, Ideal.ofBits_def, Ideal.ofBits_zero_f32, zero_add]
  refine Finset.sum_congr rfl fun k _ => ?_
  rw [idx_v13, expo_at]

/-- The softmax weights. -/
theorem weight_at (p : Fin 32) (t : Fin 4096) :
    val_main_v16 (F := Ideal) x0 x1 x2 x3 (ix3 p t (0 : Fin 1)) = weight x0 x1 x2 x3 p t := by
  rw [val_main_v16_apply, val_main_v15_apply, val_main_v14_apply, idx_v14_v15, expo_at, denom_at, Ideal.hostDivf_def]
  rfl

/-- The reference's result is the pooled array. -/
theorem ref_eq : val_main_v19 (F := Ideal) x0 x1 x2 x3 = pool x0 x1 x2 x3 := by
  funext i
  obtain ⟨p, f, rfl⟩ : ∃ (p : Fin 32) (f : Fin 512), i = ix2 p f := ⟨i 0, i 1, eq_ix2 i⟩
  rw [val_main_v19_apply, val_main_cst_2_apply, Ideal.ofBits_def, Ideal.ofBits_zero_f32, zero_add]
  show _ = ∑ t : Fin 4096, x0 (ix3 p t f) * weight x0 x1 x2 x3 p t
  refine Finset.sum_congr rfl fun t _ => ?_
  rw [idx_v19, val_main_v18_apply, val_main_v17_apply, idx_v17, weight_at, Ideal.mulf_def]

/-- The composed term the run of the reference states for its result, at the four argument arrays, is the pooled
    array. -/
theorem run_term_eq :
    Host.reduceAdd (F := Ideal) (mulf (x0) (broadcastInDim S32x4096x512 ![0, 1, 2] bcast_S32x4096x1_S32x4096x512_0_1_2 (Host.divf (F := Ideal) (Host.exp (F := Ideal) (subf (Host.dotGeneral (F := Ideal) (φ₁ := .f32) (φ₂ := .f32) dot_S32x4096x512_S512x1_S32x4096x1_2_0_01_1_n_n none (Host.tanh (F := Ideal) (addf (Host.dotGeneral (F := Ideal) (φ₁ := .f32) (φ₂ := .f32) dot_S32x4096x512_S512x512_S32x4096x512_2_0_01_1_n_n none (x0) (x1)) (broadcastInDim S32x4096x512 ![0, 1, 2] bcast_S1x1x512_S32x4096x512_0_1_2 (broadcastInDim S1x1x512 ![2] bcast_S512_S1x1x512_2 (x2))))) (x3)) (broadcastInDim S32x4096x1 ![0, 1, 2] bcast_S32x1x1_S32x4096x1_0_1_2 (broadcastInDim S32x1x1 ![0, 2] bcast_S32x1_S32x1x1_0_2 (maximumf (broadcastInDim S32x1 ![] bcast_S_S32x1 (constant (F := Ideal) S_ .f32 0xFF800000#32)) (Host.reduce (FloatOps.maximumf (F := Ideal)) (Host.dotGeneral (F := Ideal) (φ₁ := .f32) (φ₂ := .f32) dot_S32x4096x512_S512x1_S32x4096x1_2_0_01_1_n_n none (Host.tanh (F := Ideal) (addf (Host.dotGeneral (F := Ideal) (φ₁ := .f32) (φ₂ := .f32) dot_S32x4096x512_S512x512_S32x4096x512_2_0_01_1_n_n none (x0) (x1)) (broadcastInDim S32x4096x512 ![0, 1, 2] bcast_S1x1x512_S32x4096x512_0_1_2 (broadcastInDim S1x1x512 ![2] bcast_S512_S1x1x512_2 (x2))))) (x3)) (constant (F := Ideal) S_ .f32 0xFF800000#32) reducesTo_S32x4096x1_S32x1_d1 h_S_)))))) (broadcastInDim S32x4096x1 ![0, 1, 2] bcast_S32x1x1_S32x4096x1_0_1_2 (broadcastInDim S32x1x1 ![0, 2] bcast_S32x1_S32x1x1_0_2 (Host.reduceAdd (F := Ideal) (Host.exp (F := Ideal) (subf (Host.dotGeneral (F := Ideal) (φ₁ := .f32) (φ₂ := .f32) dot_S32x4096x512_S512x1_S32x4096x1_2_0_01_1_n_n none (Host.tanh (F := Ideal) (addf (Host.dotGeneral (F := Ideal) (φ₁ := .f32) (φ₂ := .f32) dot_S32x4096x512_S512x512_S32x4096x512_2_0_01_1_n_n none (x0) (x1)) (broadcastInDim S32x4096x512 ![0, 1, 2] bcast_S1x1x512_S32x4096x512_0_1_2 (broadcastInDim S1x1x512 ![2] bcast_S512_S1x1x512_2 (x2))))) (x3)) (broadcastInDim S32x4096x1 ![0, 1, 2] bcast_S32x1x1_S32x4096x1_0_1_2 (broadcastInDim S32x1x1 ![0, 2] bcast_S32x1_S32x1x1_0_2 (maximumf (broadcastInDim S32x1 ![] bcast_S_S32x1 (constant (F := Ideal) S_ .f32 0xFF800000#32)) (Host.reduce (FloatOps.maximumf (F := Ideal)) (Host.dotGeneral (F := Ideal) (φ₁ := .f32) (φ₂ := .f32) dot_S32x4096x512_S512x1_S32x4096x1_2_0_01_1_n_n none (Host.tanh (F := Ideal) (addf (Host.dotGeneral (F := Ideal) (φ₁ := .f32) (φ₂ := .f32) dot_S32x4096x512_S512x512_S32x4096x512_2_0_01_1_n_n none (x0) (x1)) (broadcastInDim S32x4096x512 ![0, 1, 2] bcast_S1x1x512_S32x4096x512_0_1_2 (broadcastInDim S1x1x512 ![2] bcast_S512_S1x1x512_2 (x2))))) (x3)) (constant (F := Ideal) S_ .f32 0xFF800000#32) reducesTo_S32x4096x1_S32x1_d1 h_S_)))))) (constant (F := Ideal) S_ .f32 0x00000000#32) reducesTo_S32x4096x1_S32x1_d1 h_S_)))))) (constant (F := Ideal) S_ .f32 0x00000000#32) reducesTo_S32x4096x512_S32x512_d1 h_S_
      = pool x0 x1 x2 x3 :=
  (val_main_v19_eq (F := Ideal) x0 x1 x2 x3).trans (ref_eq x0 x1 x2 x3)

end Cert.PoolRef

end
-- ==== Proof.Finite.lean ====
/-
  The finiteness precondition, entry by entry.

  The precondition says that a conjunction of four `all (|x| < +∞)`, one per argument array, is 1. A conjunction
  of bits that is 1 has every conjunct 1, and an `all` that is 1 met a 1 at every entry: so every entry of each
  of the four argument arrays is a real number.
-/
import proofs.«170809_j48842368090703_2_alg».proof.Defs
import proofs.«170809_j48842368090703_2_alg».proof.Proof.LibReal
import Idealize.ShloMosaic.Lib.ReduceAll
import Idealize.ShloMosaic.Lib.Affine
import Idealize.ShloMosaic.Lib.ValueIdx

noncomputable section

namespace Cert.PoolFinite

open Idealize.ShloMosaic Idealize.SL.Sem Cert.LibReal

variable [Cert.Pre_finite_inputs.Facts]

open Cert.Pre_finite_inputs.Facts in
/-- The printed precondition function being 1 makes every entry of its four arguments real. -/
theorem real_of_fn (a0 : FVec Ideal Cert.Pre_finite_inputs.S32x4096x512 .f32)
    (a1 : FVec Ideal Cert.Pre_finite_inputs.S512x512 .f32) (a2 : FVec Ideal Cert.Pre_finite_inputs.S512 .f32)
    (a3 : FVec Ideal Cert.Pre_finite_inputs.S512x1 .f32)
    (h : Cert.Pre_finite_inputs.fn (F := Ideal) a0 a1 a2 a3 = fun _ => 1#1) :
    (∀ i, IsReal (a0 i)) ∧ (∀ i, IsReal (a1 i)) ∧ (∀ i, IsReal (a2 i)) ∧ (∀ i, IsReal (a3 i)) := by
  have e := congrFun h ValueIdx.ix0
  dsimp only [Cert.Pre_finite_inputs.fn, Cert.Pre_finite_inputs.fn_part1] at e
  obtain ⟨e012, e3⟩ := IntOp.andi_eq_one.1 e
  obtain ⟨e01, e2⟩ := IntOp.andi_eq_one.1 e012
  obtain ⟨e0, e1⟩ := IntOp.andi_eq_one.1 e01
  exact ⟨real_of_all bcast_S_S32x4096x512 reducesTo_S32x4096x512_S_d0_1_2 h_S_ a0 _ e0,
    real_of_all bcast_S_S512x512 reducesTo_S512x512_S_d0_1 h_S_ a1 _ e1,
    real_of_all bcast_S_S512 reducesTo_S512_S_d0 h_S_ a2 _ e2,
    real_of_all bcast_S_S512x1 reducesTo_S512x1_S_d0_1 h_S_ a3 _ e3⟩

/-- Under the kernel's precondition every entry of each of the four argument arrays, on every device, is a real
    number. -/
theorem real_of_pre
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal (m ((c.tc : Thread Cert.KernelIdeal.nD Cert.KernelIdeal.τ).loc Cert.KernelIdeal.main_arg0) i))
      ∧ (∀ i, IsReal (m ((c.tc : Thread Cert.KernelIdeal.nD Cert.KernelIdeal.τ).loc Cert.KernelIdeal.main_arg1) i))
      ∧ (∀ i, IsReal (m ((c.tc : Thread Cert.KernelIdeal.nD Cert.KernelIdeal.τ).loc Cert.KernelIdeal.main_arg2) i))
      ∧ (∀ i, IsReal (m ((c.tc : Thread Cert.KernelIdeal.nD Cert.KernelIdeal.τ).loc Cert.KernelIdeal.main_arg3) i)) :=
  real_of_fn _ _ _ _ (h c)

end Cert.PoolFinite

end
-- ==== Proof.lean ====
/-
  Additive-attention pooling by a tiled (online) softmax against its plain formulation: the certificate.

  Both idealized programs compute, from arrays `x`, `W`, `b`, `V` with real entries, the array
      out[p,f] = ∑ t, x[p,t,f] · softmax_t (s p ·),   s p t = ∑ u, tanh (x[p,t,:] · W[:,u] + b[u]) · V[u,0]
  (Proof/Spec.lean). The reference does so literally (Proof/RefValue.lean). The kernel visits a batch block's
  4096 tokens 256 at a time, keeping a running level, denominator and numerator per row and rescaling them as the
  level grows; that these end at the same quotient is the online-softmax invariant (Proof/LibOnlineSoftmax.lean,
  Proof/Tiles.lean), carried along the grid in Proof/Invariant.lean from the body's stored values read entry by entry
  (Proof/Pieces.lean, Proof/State.lean, Proof/PayAt.lean, Proof/PayNum.lean, Proof/Blocks.lean), and
  Proof/KernelValue.lean reads the result array off the four write-backs. The law joining the two sides moves a common
  factor across finite sums and cancels it, which needs every entry finite: the precondition is used
  (Proof/Finite.lean). The frames are the generated ones; the ideal pass rewrote nothing.
-/
import proofs.«170809_j48842368090703_2_alg».proof.Defs
import proofs.«170809_j48842368090703_2_alg».proof.Proof.Gen.Kernel
import proofs.«170809_j48842368090703_2_alg».proof.Proof.Gen.Kernel.Frame
import proofs.«170809_j48842368090703_2_alg».proof.Proof.Gen.KernelIdeal
import proofs.«170809_j48842368090703_2_alg».proof.Proof.Gen.KernelIdeal.Frame
import proofs.«170809_j48842368090703_2_alg».proof.Proof.Gen.KernelIdeal.Value
import proofs.«170809_j48842368090703_2_alg».proof.Proof.Gen.ReferenceIdeal
import proofs.«170809_j48842368090703_2_alg».proof.Proof.Gen.ReferenceIdeal.Run
import proofs.«170809_j48842368090703_2_alg».proof.Proof.Gen.ReferenceIdeal.Read
import proofs.«170809_j48842368090703_2_alg».proof.Proof.Gen.Pre_finite_inputs
import proofs.«170809_j48842368090703_2_alg».proof.Proof.KernelValue
import proofs.«170809_j48842368090703_2_alg».proof.Proof.RefValue
import proofs.«170809_j48842368090703_2_alg».proof.Proof.Finite
import Idealize.ShloMosaic.Adequacy
import Idealize.ShloMosaic.Init

noncomputable section

namespace Cert.Proof

open Idealize.ShloMosaic Idealize.ShloMosaic.TcCoe Idealize.SL.Sem

section Claims

variable [hK : Cert.Kernel.Facts] [hKI : Cert.KernelIdeal.Facts] [hRI : Cert.ReferenceIdeal.Facts]
  [hPre : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- With finite inputs the kernel's result array ends at the pooled array of its arguments and the reference's at
    the pooled array of its own, which agree. -/
theorem algebraic : Cert.algebraic_KernelIdeal_ReferenceIdeal := by
  intro m ρ m' ρ' hpre hagree
  have fin : ∀ c, Cert.KernelIdeal.Invariant.Finite m c := fun c =>
    have h := Cert.PoolFinite.real_of_pre m hpre c
    ⟨h.1, h.2.1, h.2.2.1, h.2.2.2⟩
  refine ⟨_, Cert.KernelIdeal.PoolValue.run m ρ fin, ?_⟩
  refine (θ_run Cert.ReferenceIdeal.defs _ _).mono (fun _ h c => ⟨?_, (h c).2⟩)
    (Cert.ReferenceIdeal.Value.run (F := Ideal) m' ρ')
  rw [(h c).1, Cert.PoolRef.run_term_eq, (hagree c).1, (hagree c).2.1, (hagree c).2.2.1, (hagree c).2.2.2]

end Claims

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
